-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1200000 : Shape := ⟨2, ![2, 1200000]⟩
abbrev S10000x64 : Shape := ⟨2, ![10000, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S2x64 .f32) (main_arg11 : FVec F S2 .f32) (main_v33 : IVec S_ 1) : IVec S_ 1 :=
  let main_v34 : FVec F S2x64 .f32 := Host.absf main_arg10
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg11
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg7 : FVec F S64x64 .f32) (main_arg8 : FVec F S64 .f32) (main_arg9 : FVec F S64x64 .f32) (main_arg10 : FVec F S2x64 .f32) (main_arg11 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_v33

def fn {F : FTy → Type} [FloatOps F] (main_arg0 : IVec S100000 32) (main_arg1 : IVec S2x1200000 32) (main_arg2 : IVec S100000 32) (main_arg3 : FVec F S10000x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S2x64 .f32) (main_arg11 : FVec F S2 .f32) : IVec S_ 1 :=
  let main_v0 : FVec F S10000x64 .f32 := Host.absf main_arg3
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S100000 : Shape := ⟨1, ![100000]⟩
abbrev S2x1200000 : Shape := ⟨2, ![2, 1200000]⟩
abbrev S10000x64 : Shape := ⟨2, ![10000, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S100000x1 : Shape := ⟨2, ![100000, 1]⟩
abbrev S100000x64 : Shape := ⟨2, ![100000, 64]⟩
abbrev S1200000x1 : Shape := ⟨2, ![1200000, 1]⟩
abbrev S1200000x64 : Shape := ⟨2, ![1200000, 64]⟩
abbrev S5000x64 : Shape := ⟨2, ![5000, 64]⟩
abbrev S5000x1 : Shape := ⟨2, ![5000, 1]⟩
abbrev S1x64 : Shape := ⟨2, ![1, 64]⟩
abbrev S2048 : Shape := ⟨1, ![2048]⟩
abbrev S2048x1 : Shape := ⟨2, ![2048, 1]⟩
abbrev S2048x64 : Shape := ⟨2, ![2048, 64]⟩
abbrev S64x2 : Shape := ⟨2, ![64, 2]⟩
abbrev S2048x2 : Shape := ⟨2, ![2048, 2]⟩
abbrev S1x2 : Shape := ⟨2, ![1, 2]⟩

abbrev nBuf : Space → Nat
  | .hbm => 80
  | .vmem => 27
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S100000, .i32⟩
  | .hbm, ⟨3, _⟩ => ⟨S10000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S2x64, .f32⟩
  | .hbm, ⟨11, _⟩ => ⟨S2, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S100000x1, .f32⟩
  | .hbm, ⟨32, _⟩ => ⟨S100000x1, .bf16⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S64x64, .f32⟩
  | .hbm, ⟨47, _⟩ => ⟨S64x64, .f32⟩
  | .hbm, ⟨48, _⟩ => ⟨S100000x64, .bf16⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .bf16⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S64x64, .f32⟩
  | .hbm, ⟨64, _⟩ => ⟨S64x64, .f32⟩
  | .hbm, ⟨65, _⟩ => ⟨S100000x64, .bf16⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S2048, .f32⟩
  | .hbm, ⟨70, _⟩ => ⟨S100000x1, .i32⟩
  | .hbm, ⟨71, _⟩ => ⟨S2048, .f32⟩
  | .hbm, ⟨72, _⟩ => ⟨S2048x1, .f32⟩
  | .hbm, ⟨73, _⟩ => ⟨S100000x64, .f32⟩
  | .hbm, ⟨74, _⟩ => ⟨S_, .f32⟩
  | .hbm, ⟨75, _⟩ => ⟨S2048x64, .f32⟩
  | .hbm, ⟨76, _⟩ => ⟨S100000x1, .i32⟩
  | .hbm, ⟨77, _⟩ => ⟨S2048x64, .f32⟩
  | .hbm, ⟨78, _⟩ => ⟨S64x2, .f32⟩
  | .hbm, ⟨79, _⟩ => ⟨S2048x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .bf16⟩
  | .local _ .vmem, ⟨5, _⟩ => ⟨S5000x1, .bf16⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S5000x1, .bf16⟩
  | .local _ .vmem, ⟨16, _⟩ => ⟨S5000x1, .bf16⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S5000x64, .bf16⟩
  | .local _ .vmem, ⟨21, _⟩ => ⟨S5000x64, .bf16⟩
  | .local _ .vmem, ⟨22, _⟩ => ⟨S2048x64, .f32⟩
  | .local _ .vmem, ⟨23, _⟩ => ⟨S2048x1, .f32⟩
  | .local _ .vmem, ⟨24, _⟩ => ⟨S64x2, .f32⟩
  | .local _ .vmem, ⟨25, _⟩ => ⟨S2, .f32⟩
  | .local _ .vmem, ⟨26, _⟩ => ⟨S2048x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bitsLt_bf16_f32 : FTy.bits .bf16 < FTy.bits .f32
  bcast_S_S100000x64 : S_.BroadcastsInDim S100000x64 (![] : Fin 0 → Fin S100000x64.rank)
  transposes_S64x64_S64x64_1_0 : S64x64.Transposes [1, 0] S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x64 : S_.BroadcastsInDim S2048x64 (![] : Fin 0 → Fin S2048x64.rank)
  transposes_S2x64_S64x2_1_0 : S2x64.Transposes [1, 0] S64x2
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S10000x64_S100000x1_S100000x64_1_0_n_n_0_1_164_wf : GatherDims.WF S10000x64 S100000x1 S100000x64 [1] [0] [] [0] [] 1 ![1, 64]
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S2048_S100000x1_S100000_n_0_0_1_wf : ScatterDims.WF S2048 S100000x1 S100000 [] [0] [0] 1
  scatter_S2048x64_S100000x1_S100000x64_1_0_0_1_wf : ScatterDims.WF S2048x64 S100000x1 S100000x64 [1] [0] [0] 1
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .bf16 = 32 ∨ (Rect.block (s := S100000x1) S5000x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .bf16 = 32 ∨ (Rect.block (s := S100000x1) S5000x1.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S2048x64.size a
  hwx2_0 : ∀ i : grid2.Coords, EltTy.bits .f32 = 32 ∨ (Rect.block (s := S2048x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S2048x1.size a
  hwx2_1 : ∀ i : grid2.Coords, EltTy.bits .f32 = 32 ∨ (Rect.block (s := S2048x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2.size a ≤ S2048x2.size a
  hwx2_4 : ∀ i : grid2.Coords, EltTy.bits .f32 = 32 ∨ (Rect.block (s := S2048x2) S2048x2.size (cc2_transform_4 i) (hinb2_4 i)).WholeWords (EltTy.packing .f32)

variable [Facts₀]

def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2048x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2048x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S2048x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000 : Shape := ⟨1, ![100000]⟩
abbrev S2x1200000 : Shape := ⟨2, ![2, 1200000]⟩
abbrev S10000x64 : Shape := ⟨2, ![10000, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S100000x1 : Shape := ⟨2, ![100000, 1]⟩
abbrev S100000x64 : Shape := ⟨2, ![100000, 64]⟩
abbrev S1200000x1 : Shape := ⟨2, ![1200000, 1]⟩
abbrev S1200000x64 : Shape := ⟨2, ![1200000, 64]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩
abbrev S64x2 : Shape := ⟨2, ![64, 2]⟩
abbrev S2048x2 : Shape := ⟨2, ![2048, 2]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S100000, .i32⟩
  | .hbm, ⟨3, _⟩ => ⟨S10000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S2x64, .f32⟩
  | .hbm, ⟨11, _⟩ => ⟨S2, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S_, .f32⟩
  | .hbm, ⟨39, _⟩ => ⟨S1200000, .f32⟩
  | .hbm, ⟨40, _⟩ => ⟨S_, .f32⟩
  | .hbm, ⟨41, _⟩ => ⟨S100000, .f32⟩
  | .hbm, ⟨42, _⟩ => ⟨S1200000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S64x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .f32⟩
  | .hbm, ⟨70, _⟩ => ⟨S_, .f32⟩
  | .hbm, ⟨71, _⟩ => ⟨S100000x64, .f32⟩
  | .hbm, ⟨72, _⟩ => ⟨S1200000x1, .i32⟩
  | .hbm, ⟨73, _⟩ => ⟨S100000x64, .f32⟩
  | .hbm, ⟨74, _⟩ => ⟨S_, .f32⟩
  | .hbm, ⟨75, _⟩ => ⟨S1200000, .f32⟩
  | .hbm, ⟨76, _⟩ => ⟨S_, .f32⟩
  | .hbm, ⟨77, _⟩ => ⟨S100000, .f32⟩
  | .hbm, ⟨78, _⟩ => ⟨S1200000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S64x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S64x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S2048x64, .f32⟩
  | .hbm, ⟨99, _⟩ => ⟨S100000x1, .i32⟩
  | .hbm, ⟨100, _⟩ => ⟨S2048x64, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S2048, .f32⟩
  | .hbm, ⟨105, _⟩ => ⟨S100000x1, .i32⟩
  | .hbm, ⟨106, _⟩ => ⟨S2048, .f32⟩
  | .hbm, ⟨107, _⟩ => ⟨S_, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S64x2, .f32⟩
  | .hbm, ⟨114, _⟩ => ⟨S2048x2, .f32⟩
  | .hbm, ⟨115, _⟩ => ⟨S1x2, .f32⟩
  | .hbm, ⟨116, _⟩ => ⟨S2048x2, .f32⟩
  | .hbm, ⟨117, _⟩ => ⟨S2048x2, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  transposes_S2x64_S64x2_1_0 : S2x64.Transposes [1, 0] S64x2
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S10000x64_S100000x1_S100000x64_1_0_n_n_0_1_164_wf : GatherDims.WF S10000x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x2_S2048x2_1_0_0_1_n_n_wf : DotDims.WF S2048x64 S64x2 S2048x2 [1] [0] [0] [1] [] []

variable [Facts₀]

def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

class Facts : Prop extends Facts₀ where

variable [Facts]
-- ==== Proof.Spec.lean ====
/-
  The mathematics both programs compute, as functions of the twelve argument arrays.

  A node's new feature vector is
      relu ( (agg_r · (1 / max(cnt_r, 1))) · Wlᵀ + bl + h_r · Wrᵀ )
  where agg_r is the sum of the feature rows of the node's in-neighbours and cnt_r their number; the graph-level
  output is (psum_g · (1 / max(gcnt_g, 1))) · Woutᵀ + bout, with psum_g the sum of the rows of graph g's nodes.
  Gathers and scatter-adds are carried as the host's own operations and never opened: the two programs apply
  them to equal arrays.
-/
import proofs.«148845_j88648124990545_2_alg».proof.KernelIdeal
import proofs.«148845_j88648124990545_2_alg».proof.Proof.Gen.KernelIdeal
import Idealize.ShloMosaic.Lib.ValueIdx
import Idealize.ShloMosaic.PureOps.Ideal

noncomputable section

namespace Cert.Sage

open Idealize.ShloMosaic Idealize.ShloMosaic.ValueIdx Cert.KernelIdeal Cert.KernelIdeal.Gen

/-- The float one and zero, as the words both programs print. -/
abbrev one : EReal := Ideal.ofBits .f32 0x3F800000#32
abbrev zero : EReal := Ideal.ofBits .f32 0x00000000#32

/-- Integer argument arrays. -/
abbrev I32 (s : Shape) : Type := (⟨s, .i32⟩ : BufTy).Contents (Elt Ideal)

/-- One output entry of a SAGE layer from vectors: the aggregate row `a` scaled by the reciprocal of the clamped
    count `c` against the weight column `wl`, plus the bias entry, plus the node's own row `h` against `wr`, clamped
    at zero. -/
def sageRow (a h : Fin 64 → EReal) (c : EReal) (wl : Fin 64 → EReal) (b : EReal) (wr : Fin 64 → EReal) : EReal :=
  max (((∑ k : Fin 64, (a k * Ideal.div one (max c one)) * wl k) + b) + ∑ k : Fin 64, h k * wr k) zero

/-- One output entry of the pooled head: the pooled row `p` scaled by the reciprocal of the clamped count `c`
    against the weight column `w`, plus the bias entry. -/
def poolRow (p : Fin 64 → EReal) (c : EReal) (w : Fin 64 → EReal) (b : EReal) : EReal :=
  (∑ k : Fin 64, (p k * Ideal.div one (max c one)) * w k) + b

/-- A SAGE layer on the whole node array, at node `r` and column `q`; `W`, `Wr` are the UNtransposed weights (entry
    (q, k) multiplies input column k) and `cnt` the in-degree vector. -/
def sageAt (h agg : S100000x64.Idx → EReal) (cnt : S100000.Idx → EReal) (W : S64x64.Idx → EReal)
    (b : S64.Idx → EReal) (Wr : S64x64.Idx → EReal) (r : Fin 100000) (q : Fin 64) : EReal :=
  sageRow (fun k => agg (ix2 r k)) (fun k => h (ix2 r k)) (cnt (ix1 r)) (fun k => W (ix2 q k)) (b (ix1 q)) (fun k => Wr (ix2 q k))

/-- The layer as an array. -/
def sageArr (h agg : S100000x64.Idx → EReal) (cnt : S100000.Idx → EReal) (W : S64x64.Idx → EReal)
    (b : S64.Idx → EReal) (Wr : S64x64.Idx → EReal) : S100000x64.Idx → EReal :=
  fun i => sageAt h agg cnt W b Wr (i 0) (i 1)

theorem sageArr_ix2 (h agg : S100000x64.Idx → EReal) (cnt : S100000.Idx → EReal) (W : S64x64.Idx → EReal)
    (b : S64.Idx → EReal) (Wr : S64x64.Idx → EReal) (r : Fin 100000) (q : Fin 64) :
    sageArr h agg cnt W b Wr (ix2 r q) = sageAt h agg cnt W b Wr r q := rfl

/-- The same layer as the kernel's region is handed it: the count as a column [N, 1], the weights transposed
    (entry (k, q) multiplies input column k). -/
def sageArrK (h agg : S100000x64.Idx → EReal) (cnt : S100000x1.Idx → EReal) (WT : S64x64.Idx → EReal)
    (b : S64.Idx → EReal) (WrT : S64x64.Idx → EReal) : S100000x64.Idx → EReal :=
  fun i => sageRow (fun k => agg (ix2 (show Fin 100000 from i 0) k)) (fun k => h (ix2 (show Fin 100000 from i 0) k))
    (cnt (ix2 (show Fin 100000 from i 0) (0 : Fin 1))) (fun k => WT (ix2 k (show Fin 64 from i 1))) (b (ix1 (show Fin 64 from i 1)))
    (fun k => WrT (ix2 k (show Fin 64 from i 1)))

theorem sageArrK_ix2 (h agg : S100000x64.Idx → EReal) (cnt : S100000x1.Idx → EReal) (WT : S64x64.Idx → EReal)
    (b : S64.Idx → EReal) (WrT : S64x64.Idx → EReal) (r : Fin 100000) (q : Fin 64) :
    sageArrK h agg cnt WT b WrT (ix2 r q) = sageRow (fun k => agg (ix2 r k)) (fun k => h (ix2 r k)) (cnt (ix2 r (0 : Fin 1)))
      (fun k => WT (ix2 k q)) (b (ix1 q)) (fun k => WrT (ix2 k q)) := rfl

/-- The pooled head at graph `g` and class `q`; `Wo` untransposed (entry (q, k)), `gc` the graph sizes. -/
def poolAt (ps : S2048x64.Idx → EReal) (gc : S2048.Idx → EReal) (Wo : S2x64.Idx → EReal)
    (bo : S2.Idx → EReal) (g : Fin 2048) (q : Fin 2) : EReal :=
  poolRow (fun k => ps (ix2 g k)) (gc (ix1 g)) (fun k => Wo (ix2 q k)) (bo (ix1 q))

def poolArr (ps : S2048x64.Idx → EReal) (gc : S2048.Idx → EReal) (Wo : S2x64.Idx → EReal)
    (bo : S2.Idx → EReal) : S2048x2.Idx → EReal :=
  fun i => poolAt ps gc Wo bo (i 0) (i 1)

theorem poolArr_ix2 (ps : S2048x64.Idx → EReal) (gc : S2048.Idx → EReal) (Wo : S2x64.Idx → EReal)
    (bo : S2.Idx → EReal) (g : Fin 2048) (q : Fin 2) :
    poolArr ps gc Wo bo (ix2 g q) = poolAt ps gc Wo bo g q := rfl

/-- The head as the kernel's region is handed it: the sizes as a column [G, 1], the weight transposed [64, 2]. -/
def poolArrK (ps : S2048x64.Idx → EReal) (gc : S2048x1.Idx → EReal) (WoT : S64x2.Idx → EReal)
    (bo : S2.Idx → EReal) : S2048x2.Idx → EReal :=
  fun i => poolRow (fun k => ps (ix2 (show Fin 2048 from i 0) k)) (gc (ix2 (show Fin 2048 from i 0) (0 : Fin 1)))
    (fun k => WoT (ix2 k (show Fin 2 from i 1))) (bo (ix1 (show Fin 2 from i 1)))

theorem poolArrK_ix2 (ps : S2048x64.Idx → EReal) (gc : S2048x1.Idx → EReal) (WoT : S64x2.Idx → EReal)
    (bo : S2.Idx → EReal) (g : Fin 2048) (q : Fin 2) :
    poolArrK ps gc WoT bo (ix2 g q) = poolRow (fun k => ps (ix2 g k)) (gc (ix2 g (0 : Fin 1))) (fun k => WoT (ix2 k q)) (bo (ix1 q)) := rfl

/-! ## The one law that joins the two programs

The kernel multiplies by the reciprocal of the clamped count, the reference divides by the clamped count. The
clamped count is at least one, so it is not zero, and off zero a quotient of extended reals is the product with
the inverse: the two agree at every extended real, the infinities included. No finiteness is needed. -/

theorem one_eq : one = 1 := by
  show Ideal.ofBits .f32 0x3F800000#32 = 1
  simp [Ideal.ofBits, Ideal.ieee, -EReal.coe_mul]; norm_num

theorem zero_eq : zero = 0 := by
  show Ideal.ofBits .f32 0x00000000#32 = 0
  simp [Ideal.ofBits, Ideal.ieee]

theorem div_clamped (x c : EReal) : Ideal.div x (max c one) = x * Ideal.div one (max c one) := by
  rw [one_eq]
  have hne : max c (1 : EReal) ≠ 0 := (lt_of_lt_of_le zero_lt_one (le_max_right c 1)).ne'
  unfold Ideal.div
  rw [if_neg hne, if_neg hne, one_mul]

/-! ## The shared host operations, never opened -/

/-- An index array with negative entries wrapped by the axis length `n` (jnp's indexing rule). -/
def wrap {s : Shape} (n : BitVec 32) (x : I32 s) (bc : S_.BroadcastsInDim s (![] : Fin 0 → Fin s.rank)) : I32 s :=
  select (cmpi .slt x (broadcastInDim s ![] bc (constantI S_ 32 0#32))) (addi x (broadcastInDim s ![] bc (constantI S_ 32 n))) x

/-- The edge sources and targets: the two rows of the edge list. -/
def srcOf (x1 : I32 S2x1200000) : I32 S1200000 :=
  shapeCast S1200000 (extractStridedSlice S1x1200000 ![0, 0] x1 slices_S2x1200000_S1x1200000_0_0) shapeCasts_S1x1200000_S1200000
def dstOf (x1 : I32 S2x1200000) : I32 S1200000 :=
  shapeCast S1200000 (extractStridedSlice S1x1200000 ![1, 0] x1 slices_S2x1200000_S1x1200000_1_0) shapeCasts_S1x1200000_S1200000

/-- The embedding lookup `emb[x]`. -/
def embOf (x0 : I32 S100000) (x3 : FVec Ideal S10000x64 .f32) : FVec Ideal S100000x64 .f32 :=
  Host.gather gather_S10000x64_S100000x1_S100000x64_1_0_n_n_0_1_164 x3
    (broadcastInDim S100000x1 ![0] bcast_S100000_S100000x1_0 (wrap 10000#32 x0 bcast_S_S100000))

/-- The neighbour sum: the rows of `h` at the edge sources, scatter-added at the edge targets. -/
def aggOf (h : FVec Ideal S100000x64 .f32) (x1 : I32 S2x1200000) : FVec Ideal S100000x64 .f32 :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 (dstOf x1))
    (Host.gather gather_S100000x64_S1200000x1_S1200000x64_1_0_n_n_0_1_164 h
      (broadcastInDim S1200000x1 ![0] bcast_S1200000_S1200000x1_0 (wrap 100000#32 (srcOf x1) bcast_S_S1200000)))

/-- The in-degrees: ones scatter-added at the edge targets. -/
def cntOf (x1 : I32 S2x1200000) : FVec Ideal S100000 .f32 :=
  Host.scatterAdd scatter_S100000_S1200000x1_S1200000_n_0_0_1
    (broadcastInDim S100000 ![] bcast_S_S100000 (constant S_ .f32 0x00000000#32))
    (broadcastInDim S1200000x1 ![0] bcast_S1200000_S1200000x1_0 (dstOf x1))
    (broadcastInDim S1200000 ![] bcast_S_S1200000 (constant S_ .f32 0x3F800000#32))

/-- The per-graph sum of node rows, and the per-graph node counts. -/
def poolSumOf (h2 : FVec Ideal S100000x64 .f32) (x2 : I32 S100000) : FVec Ideal S2048x64 .f32 :=
  Host.scatterAdd scatter_S2048x64_S100000x1_S100000x64_1_0_0_1
    (broadcastInDim S2048x64 ![] bcast_S_S2048x64 (constant S_ .f32 0x00000000#32))
    (broadcastInDim S100000x1 ![0] bcast_S100000_S100000x1_0 x2) h2
def gcntOf (x2 : I32 S100000) : FVec Ideal S2048 .f32 :=
  Host.scatterAdd scatter_S2048_S100000x1_S100000_n_0_0_1
    (broadcastInDim S2048 ![] bcast_S_S2048 (constant S_ .f32 0x00000000#32))
    (broadcastInDim S100000x1 ![0] bcast_S100000_S100000x1_0 x2)
    (broadcastInDim S100000 ![] bcast_S_S100000 (constant S_ .f32 0x3F800000#32))

/-- The three stages as functions of the argument arrays. -/
def h1Of (x0 : I32 S100000) (x1 : I32 S2x1200000) (x3 : FVec Ideal S10000x64 .f32) (x4 : FVec Ideal S64x64 .f32)
    (x5 : FVec Ideal S64 .f32) (x6 : FVec Ideal S64x64 .f32) : FVec Ideal S100000x64 .f32 :=
  sageArr (embOf x0 x3) (aggOf (embOf x0 x3) x1) (cntOf x1) x4 x5 x6
def h2Of (x0 : I32 S100000) (x1 : I32 S2x1200000) (x3 : FVec Ideal S10000x64 .f32) (x4 : FVec Ideal S64x64 .f32)
    (x5 : FVec Ideal S64 .f32) (x6 x7 : FVec Ideal S64x64 .f32) (x8 : FVec Ideal S64 .f32) (x9 : FVec Ideal S64x64 .f32) :
    FVec Ideal S100000x64 .f32 :=
  sageArr (h1Of x0 x1 x3 x4 x5 x6) (aggOf (h1Of x0 x1 x3 x4 x5 x6) x1) (cntOf x1) x7 x8 x9
def outOf (x0 : I32 S100000) (x1 : I32 S2x1200000) (x2 : I32 S100000) (x3 : FVec Ideal S10000x64 .f32) (x4 : FVec Ideal S64x64 .f32)
    (x5 : FVec Ideal S64 .f32) (x6 x7 : FVec Ideal S64x64 .f32) (x8 : FVec Ideal S64 .f32) (x9 : FVec Ideal S64x64 .f32)
    (x10 : FVec Ideal S2x64 .f32) (x11 : FVec Ideal S2 .f32) : FVec Ideal S2048x2 .f32 :=
  poolArr (poolSumOf (h2Of x0 x1 x3 x4 x5 x6 x7 x8 x9) x2) (gcntOf x2) x10 x11

end Cert.Sage

end
-- ==== Proof.KVal1a.lean ====
/-
  The buffer contents when the first region is entered, as functions of the argument arrays: the embedded node
  features and their neighbour sums. Each is the host operations' composed term read off the fold of the first
  host stretch over the launch memory.
-/
import proofs.«148845_j88648124990545_2_alg».proof.Proof.Gen.KernelIdeal.Frame
import proofs.«148845_j88648124990545_2_alg».proof.Proof.Spec
import Idealize.ShloMosaic.Lib.StableHlo.Run
import Idealize.ShloMosaic.PureOps.Ideal

set_option maxRecDepth 16384

noncomputable section

namespace Cert.Sage.Val

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

set_option maxHeartbeats 8000000 in
/-- The first region's node features: the embedding rows of the node tokens. -/
theorem W1_v10 : W1 (F := Ideal) m ρ c (Proc.devRef .tc main_v10) = embOf (m ((c.tc : Thread nD τ).loc main_arg0)) (m ((c.tc : Thread nD τ).loc main_arg3)) := by
  show StableHlo.after hostOps0 _ (Proc.devRef .tc main_v10) = _
  simp only [hostOps0]
  after_results
  rfl

set_option maxHeartbeats 8000000 in
/-- The first region's aggregates: the neighbour sums of the embedded features. -/
theorem W1_v26 : W1 (F := Ideal) m ρ c (Proc.devRef .tc main_v26) = aggOf (embOf (m ((c.tc : Thread nD τ).loc main_arg0)) (m ((c.tc : Thread nD τ).loc main_arg3))) (m ((c.tc : Thread nD τ).loc main_arg1)) := by
  show StableHlo.after hostOps0 _ (Proc.devRef .tc main_v26) = _
  simp only [hostOps0]
  after_results
  rfl

end Cert.Sage.Val

end
-- ==== Proof.KVal1b.lean ====
/-
  The buffer contents when the first region is entered, continued: the in-degree column, the transposed weights,
  the edge sources and targets, and the arguments the first host stretch does not touch.
-/
import proofs.«148845_j88648124990545_2_alg».proof.Proof.Gen.KernelIdeal.Frame
import proofs.«148845_j88648124990545_2_alg».proof.Proof.Spec
import Idealize.ShloMosaic.Lib.StableHlo.Run
import Idealize.ShloMosaic.PureOps.Ideal

set_option maxRecDepth 16384

noncomputable section

namespace Cert.Sage.Val

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

set_option maxHeartbeats 8000000 in
/-- The in-degree column (a change of float format is the identity on the extended reals). -/
theorem W1_v16 : W1 (F := Ideal) m ρ c (Proc.devRef .tc main_v16)
    = broadcastInDim S100000x1 ![0] bcast_S100000_S100000x1_0 (cntOf (m ((c.tc : Thread nD τ).loc main_arg1))) := by
  show StableHlo.after hostOps0 _ (Proc.devRef .tc main_v16) = _
  simp only [hostOps0]
  after_results
  rfl

set_option maxHeartbeats 8000000 in
theorem W1_v27 : W1 (F := Ideal) m ρ c (Proc.devRef .tc main_v27)
    = transpose S64x64 [1, 0] (m ((c.tc : Thread nD τ).loc main_arg4)) transposes_S64x64_S64x64_1_0 := by
  show StableHlo.after hostOps0 _ (Proc.devRef .tc main_v27) = _
  simp only [hostOps0]
  after_results

set_option maxHeartbeats 8000000 in
theorem W1_v28 : W1 (F := Ideal) m ρ c (Proc.devRef .tc main_v28)
    = transpose S64x64 [1, 0] (m ((c.tc : Thread nD τ).loc main_arg6)) transposes_S64x64_S64x64_1_0 := by
  show StableHlo.after hostOps0 _ (Proc.devRef .tc main_v28) = _
  simp only [hostOps0]
  after_results

set_option maxHeartbeats 8000000 in
/-- The edge sources. -/
theorem W1_v1 : W1 (F := Ideal) m ρ c (Proc.devRef .tc main_v1) = srcOf (m ((c.tc : Thread nD τ).loc main_arg1)) := by
  show StableHlo.after hostOps0 _ (Proc.devRef .tc main_v1) = _
  simp only [hostOps0]
  after_results
  rfl

set_option maxHeartbeats 8000000 in
/-- The edge targets. -/
theorem W1_v3 : W1 (F := Ideal) m ρ c (Proc.devRef .tc main_v3) = dstOf (m ((c.tc : Thread nD τ).loc main_arg1)) := by
  show StableHlo.after hostOps0 _ (Proc.devRef .tc main_v3) = _
  simp only [hostOps0]
  after_results
  rfl

/-- No operation of the first host stretch writes argument 5. -/
theorem W1_arg5 : W1 (F := Ideal) m ρ c (Proc.devRef .tc main_arg5) = (m ((c.tc : Thread nD τ).loc main_arg5)) := by
  show StableHlo.after hostOps0 (W0 m ρ c) (Proc.devRef .tc main_arg5) = W0 m ρ c (Proc.devRef .tc main_arg5)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 7. -/
theorem W1_arg7 : W1 (F := Ideal) m ρ c (Proc.devRef .tc main_arg7) = (m ((c.tc : Thread nD τ).loc main_arg7)) := by
  show StableHlo.after hostOps0 (W0 m ρ c) (Proc.devRef .tc main_arg7) = W0 m ρ c (Proc.devRef .tc main_arg7)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 8. -/
theorem W1_arg8 : W1 (F := Ideal) m ρ c (Proc.devRef .tc main_arg8) = (m ((c.tc : Thread nD τ).loc main_arg8)) := by
  show StableHlo.after hostOps0 (W0 m ρ c) (Proc.devRef .tc main_arg8) = W0 m ρ c (Proc.devRef .tc main_arg8)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 9. -/
theorem W1_arg9 : W1 (F := Ideal) m ρ c (Proc.devRef .tc main_arg9) = (m ((c.tc : Thread nD τ).loc main_arg9)) := by
  show StableHlo.after hostOps0 (W0 m ρ c) (Proc.devRef .tc main_arg9) = W0 m ρ c (Proc.devRef .tc main_arg9)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 2. -/
theorem W1_arg2 : W1 (F := Ideal) m ρ c (Proc.devRef .tc main_arg2) = (m ((c.tc : Thread nD τ).loc main_arg2)) := by
  show StableHlo.after hostOps0 (W0 m ρ c) (Proc.devRef .tc main_arg2) = W0 m ρ c (Proc.devRef .tc main_arg2)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 10. -/
theorem W1_arg10 : W1 (F := Ideal) m ρ c (Proc.devRef .tc main_arg10) = (m ((c.tc : Thread nD τ).loc main_arg10)) := by
  show StableHlo.after hostOps0 (W0 m ρ c) (Proc.devRef .tc main_arg10) = W0 m ρ c (Proc.devRef .tc main_arg10)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation of the first host stretch writes argument 11. -/
theorem W1_arg11 : W1 (F := Ideal) m ρ c (Proc.devRef .tc main_arg11) = (m ((c.tc : Thread nD τ).loc main_arg11)) := by
  show StableHlo.after hostOps0 (W0 m ρ c) (Proc.devRef .tc main_arg11) = W0 m ρ c (Proc.devRef .tc main_arg11)
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

end Cert.Sage.Val

end
-- ==== Proof.KVal3.lean ====
/-
  The buffer contents at the first region's exit and at the second region's entry: what the first region does not
  write stays, the second host stretch gathers the first layer's rows at the edge sources and scatter-adds them at
  the edge targets, and transposes the second layer's weights.
-/
import proofs.«148845_j88648124990545_2_alg».proof.Proof.KVal1b

set_option maxRecDepth 16384

noncomputable section

namespace Cert.Sage.Val

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## At the first region's exit -/

theorem W2_v1 : W2 (F := Ideal) m ρ c (Proc.devRef .tc main_v1) = srcOf (m ((c.tc : Thread nD τ).loc main_arg1)) :=
  (W2_of_ne m ρ c main_v1 (by decide)).trans (W1_v1 m ρ c)

theorem W2_v3 : W2 (F := Ideal) m ρ c (Proc.devRef .tc main_v3) = dstOf (m ((c.tc : Thread nD τ).loc main_arg1)) :=
  (W2_of_ne m ρ c main_v3 (by decide)).trans (W1_v3 m ρ c)

theorem W2_arg7 : W2 (F := Ideal) m ρ c (Proc.devRef .tc main_arg7) = (m ((c.tc : Thread nD τ).loc main_arg7)) :=
  (W2_of_ne m ρ c main_arg7 (by decide)).trans (W1_arg7 m ρ c)

theorem W2_arg8 : W2 (F := Ideal) m ρ c (Proc.devRef .tc main_arg8) = (m ((c.tc : Thread nD τ).loc main_arg8)) :=
  (W2_of_ne m ρ c main_arg8 (by decide)).trans (W1_arg8 m ρ c)

theorem W2_arg9 : W2 (F := Ideal) m ρ c (Proc.devRef .tc main_arg9) = (m ((c.tc : Thread nD τ).loc main_arg9)) :=
  (W2_of_ne m ρ c main_arg9 (by decide)).trans (W1_arg9 m ρ c)

theorem W2_arg2 : W2 (F := Ideal) m ρ c (Proc.devRef .tc main_arg2) = (m ((c.tc : Thread nD τ).loc main_arg2)) :=
  (W2_of_ne m ρ c main_arg2 (by decide)).trans (W1_arg2 m ρ c)

theorem W2_arg10 : W2 (F := Ideal) m ρ c (Proc.devRef .tc main_arg10) = (m ((c.tc : Thread nD τ).loc main_arg10)) :=
  (W2_of_ne m ρ c main_arg10 (by decide)).trans (W1_arg10 m ρ c)

theorem W2_arg11 : W2 (F := Ideal) m ρ c (Proc.devRef .tc main_arg11) = (m ((c.tc : Thread nD τ).loc main_arg11)) :=
  (W2_of_ne m ρ c main_arg11 (by decide)).trans (W1_arg11 m ρ c)

/-- The in-degree column is an input of the first region: it leaves it as it entered. -/
theorem W2_v16 : W2 (F := Ideal) m ρ c (Proc.devRef .tc main_v16)
    = broadcastInDim S100000x1 ![0] bcast_S100000_S100000x1_0 (cntOf (m ((c.tc : Thread nD τ).loc main_arg1))) :=
  (W2_arr m ρ c 2).trans ((Pipeline.Dat.arrAt_in (dat := dat0 (V1 m ρ) c) 2 rfl cfg0.N).trans ((A_eq0 (V1 m ρ) c 2).trans (W1_v16 m ρ c)))

/-! ## At the second region's entry -/

theorem W3_v29_skip : W3 (F := Ideal) m ρ c (Proc.devRef .tc main_v29) = W2 m ρ c (Proc.devRef .tc main_v29) := by
  show StableHlo.after hostOps1 (W2 m ρ c) (Proc.devRef .tc main_v29) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W3_v16_skip : W3 (F := Ideal) m ρ c (Proc.devRef .tc main_v16) = W2 m ρ c (Proc.devRef .tc main_v16) := by
  show StableHlo.after hostOps1 (W2 m ρ c) (Proc.devRef .tc main_v16) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W3_arg8_skip : W3 (F := Ideal) m ρ c (Proc.devRef .tc main_arg8) = W2 m ρ c (Proc.devRef .tc main_arg8) := by
  show StableHlo.after hostOps1 (W2 m ρ c) (Proc.devRef .tc main_arg8) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W3_arg2_skip : W3 (F := Ideal) m ρ c (Proc.devRef .tc main_arg2) = W2 m ρ c (Proc.devRef .tc main_arg2) := by
  show StableHlo.after hostOps1 (W2 m ρ c) (Proc.devRef .tc main_arg2) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W3_arg10_skip : W3 (F := Ideal) m ρ c (Proc.devRef .tc main_arg10) = W2 m ρ c (Proc.devRef .tc main_arg10) := by
  show StableHlo.after hostOps1 (W2 m ρ c) (Proc.devRef .tc main_arg10) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W3_arg11_skip : W3 (F := Ideal) m ρ c (Proc.devRef .tc main_arg11) = W2 m ρ c (Proc.devRef .tc main_arg11) := by
  show StableHlo.after hostOps1 (W2 m ρ c) (Proc.devRef .tc main_arg11) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 8000000 in
/-- The second region's aggregates: the neighbour sums of the first layer's output. -/
theorem W3_v40 : W3 (F := Ideal) m ρ c (Proc.devRef .tc main_v40) = aggOf (W2 m ρ c (Proc.devRef .tc main_v29)) (m ((c.tc : Thread nD τ).loc main_arg1)) := by
  show StableHlo.after hostOps1 (W2 m ρ c) (Proc.devRef .tc main_v40) = _
  have e1 := W2_v1 m ρ c
  have e3 := W2_v3 m ρ c
  generalize W2 m ρ c = Wv at e1 e3 ⊢
  simp only [hostOps1]
  after_results
  rw [e1, e3]
  rfl

set_option maxHeartbeats 8000000 in
theorem W3_v41 : W3 (F := Ideal) m ρ c (Proc.devRef .tc main_v41) = transpose S64x64 [1, 0] (m ((c.tc : Thread nD τ).loc main_arg7)) transposes_S64x64_S64x64_1_0 := by
  show StableHlo.after hostOps1 (W2 m ρ c) (Proc.devRef .tc main_v41) = _
  have e := W2_arg7 m ρ c
  generalize W2 m ρ c = Wv at e ⊢
  simp only [hostOps1]
  after_results
  rw [e]

set_option maxHeartbeats 8000000 in
theorem W3_v42 : W3 (F := Ideal) m ρ c (Proc.devRef .tc main_v42) = transpose S64x64 [1, 0] (m ((c.tc : Thread nD τ).loc main_arg9)) transposes_S64x64_S64x64_1_0 := by
  show StableHlo.after hostOps1 (W2 m ρ c) (Proc.devRef .tc main_v42) = _
  have e := W2_arg9 m ρ c
  generalize W2 m ρ c = Wv at e ⊢
  simp only [hostOps1]
  after_results
  rw [e]

theorem W3_v16 : W3 (F := Ideal) m ρ c (Proc.devRef .tc main_v16)
    = broadcastInDim S100000x1 ![0] bcast_S100000_S100000x1_0 (cntOf (m ((c.tc : Thread nD τ).loc main_arg1))) :=
  (W3_v16_skip m ρ c).trans (W2_v16 m ρ c)
theorem W3_arg8 : W3 (F := Ideal) m ρ c (Proc.devRef .tc main_arg8) = (m ((c.tc : Thread nD τ).loc main_arg8)) :=
  (W3_arg8_skip m ρ c).trans (W2_arg8 m ρ c)
theorem W3_arg2 : W3 (F := Ideal) m ρ c (Proc.devRef .tc main_arg2) = (m ((c.tc : Thread nD τ).loc main_arg2)) :=
  (W3_arg2_skip m ρ c).trans (W2_arg2 m ρ c)
theorem W3_arg10 : W3 (F := Ideal) m ρ c (Proc.devRef .tc main_arg10) = (m ((c.tc : Thread nD τ).loc main_arg10)) :=
  (W3_arg10_skip m ρ c).trans (W2_arg10 m ρ c)
theorem W3_arg11 : W3 (F := Ideal) m ρ c (Proc.devRef .tc main_arg11) = (m ((c.tc : Thread nD τ).loc main_arg11)) :=
  (W3_arg11_skip m ρ c).trans (W2_arg11 m ρ c)

end Cert.Sage.Val

end
-- ==== Proof.KVal5.lean ====
/-
  The buffer contents at the second region's exit and at the third region's entry: the third host stretch
  scatter-adds the second layer's rows, and ones, at the nodes' graph numbers, and transposes the head's weight.
-/
import proofs.«148845_j88648124990545_2_alg».proof.Proof.KVal3

set_option maxRecDepth 16384

noncomputable section

namespace Cert.Sage.Val

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

theorem W4_arg2 : W4 (F := Ideal) m ρ c (Proc.devRef .tc main_arg2) = (m ((c.tc : Thread nD τ).loc main_arg2)) :=
  (W4_of_ne m ρ c main_arg2 (by decide)).trans (W3_arg2 m ρ c)
theorem W4_arg10 : W4 (F := Ideal) m ρ c (Proc.devRef .tc main_arg10) = (m ((c.tc : Thread nD τ).loc main_arg10)) :=
  (W4_of_ne m ρ c main_arg10 (by decide)).trans (W3_arg10 m ρ c)
theorem W4_arg11 : W4 (F := Ideal) m ρ c (Proc.devRef .tc main_arg11) = (m ((c.tc : Thread nD τ).loc main_arg11)) :=
  (W4_of_ne m ρ c main_arg11 (by decide)).trans (W3_arg11 m ρ c)

theorem W5_arg11_skip : W5 (F := Ideal) m ρ c (Proc.devRef .tc main_arg11) = W4 m ρ c (Proc.devRef .tc main_arg11) := by
  show StableHlo.after hostOps2 (W4 m ρ c) (Proc.devRef .tc main_arg11) = _
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem W5_arg11 : W5 (F := Ideal) m ρ c (Proc.devRef .tc main_arg11) = (m ((c.tc : Thread nD τ).loc main_arg11)) :=
  (W5_arg11_skip m ρ c).trans (W4_arg11 m ρ c)

set_option maxHeartbeats 8000000 in
/-- The per-graph sums of the second layer's rows. -/
theorem W5_v52 : W5 (F := Ideal) m ρ c (Proc.devRef .tc main_v52) = poolSumOf (W4 m ρ c (Proc.devRef .tc main_v43)) (m ((c.tc : Thread nD τ).loc main_arg2)) := by
  show StableHlo.after hostOps2 (W4 m ρ c) (Proc.devRef .tc main_v52) = _
  have e := W4_arg2 m ρ c
  generalize W4 m ρ c = Wv at e ⊢
  simp only [hostOps2]
  after_results
  rw [e]
  rfl

set_option maxHeartbeats 8000000 in
/-- The graph sizes, as a column. -/
theorem W5_v48 : W5 (F := Ideal) m ρ c (Proc.devRef .tc main_v48)
    = broadcastInDim S2048x1 ![0] bcast_S2048_S2048x1_0 (gcntOf (m ((c.tc : Thread nD τ).loc main_arg2))) := by
  show StableHlo.after hostOps2 (W4 m ρ c) (Proc.devRef .tc main_v48) = _
  have e := W4_arg2 m ρ c
  generalize W4 m ρ c = Wv at e ⊢
  simp only [hostOps2]
  after_results
  rw [e]
  rfl

set_option maxHeartbeats 8000000 in
theorem W5_v53 : W5 (F := Ideal) m ρ c (Proc.devRef .tc main_v53) = transpose S64x2 [1, 0] (m ((c.tc : Thread nD τ).loc main_arg10)) transposes_S2x64_S64x2_1_0 := by
  show StableHlo.after hostOps2 (W4 m ρ c) (Proc.devRef .tc main_v53) = _
  have e := W4_arg10 m ρ c
  generalize W4 m ρ c = Wv at e ⊢
  simp only [hostOps2]
  after_results
  rw [e]

end Cert.Sage.Val

end
-- ==== Proof.KForms.lean ====
/-
  The layer and the head as a kernel region is handed them — the count as a column, the weights transposed — are
  the layer and the head of the specification: a transposed weight read at (k, q) is the weight at (q, k), and
  the count column read at (r, 0) is the count at r.
-/
import proofs.«148845_j88648124990545_2_alg».proof.Proof.Spec
import Idealize.ShloMosaic.Lib.Pipeline.Value

noncomputable section

namespace Cert.Sage

open Idealize.ShloMosaic Idealize.ShloMosaic.ValueIdx Cert.KernelIdeal Cert.KernelIdeal.Gen

/-- A transposed 64 × 64 weight at (k, q) is the weight at (q, k). -/
theorem transpose64_apply (W : S64x64.Idx → EReal) (k q : Fin 64) :
    transpose S64x64 [1, 0] W transposes_S64x64_S64x64_1_0 (ix2 k q) = W (ix2 q k) :=
  transpose_apply [1, 0] W transposes_S64x64_S64x64_1_0 (ix2 k q) (ix2 q k)
    (fun b => match b with | ⟨0, _⟩ => rfl | ⟨1, _⟩ => rfl)

/-- The transposed head weight [64, 2] at (k, q) is the weight [2, 64] at (q, k). -/
theorem transpose2_apply (W : S2x64.Idx → EReal) (k : Fin 64) (q : Fin 2) :
    transpose S64x2 [1, 0] W transposes_S2x64_S64x2_1_0 (ix2 k q) = W (ix2 q k) :=
  transpose_apply [1, 0] W transposes_S2x64_S64x2_1_0 (ix2 k q) (ix2 q k)
    (fun b => match b with | ⟨0, _⟩ => rfl | ⟨1, _⟩ => rfl)

/-- The in-degree column [N, 1] at (r, 0) is the in-degree at r. -/
theorem colN_apply (cnt : S100000.Idx → EReal) (r : Fin 100000) :
    broadcastInDim S100000x1 ![0] bcast_S100000_S100000x1_0 cnt (ix2 r (0 : Fin 1)) = cnt (ix1 r) :=
  broadcastInDim_apply ![0] bcast_S100000_S100000x1_0 cnt (ix2 r (0 : Fin 1)) (ix1 r)
    (fun a => match a with | ⟨0, _⟩ => by (show r.val = if (100000 : Nat) = 1 then 0 else r.val; rw [if_neg (by decide)]))

/-- The graph-size column [G, 1] at (g, 0) is the size at g. -/
theorem colG_apply (gc : S2048.Idx → EReal) (g : Fin 2048) :
    broadcastInDim S2048x1 ![0] bcast_S2048_S2048x1_0 gc (ix2 g (0 : Fin 1)) = gc (ix1 g) :=
  broadcastInDim_apply ![0] bcast_S2048_S2048x1_0 gc (ix2 g (0 : Fin 1)) (ix1 g)
    (fun a => match a with | ⟨0, _⟩ => by (show g.val = if (2048 : Nat) = 1 then 0 else g.val; rw [if_neg (by decide)]))

/-- A region's layer is the specification's layer. -/
theorem sageArrK_eq (h agg : S100000x64.Idx → EReal) (cnt : S100000.Idx → EReal) (W : S64x64.Idx → EReal)
    (b : S64.Idx → EReal) (Wr : S64x64.Idx → EReal) :
    sageArrK h agg (broadcastInDim S100000x1 ![0] bcast_S100000_S100000x1_0 cnt)
      (transpose S64x64 [1, 0] W transposes_S64x64_S64x64_1_0) b (transpose S64x64 [1, 0] Wr transposes_S64x64_S64x64_1_0)
    = sageArr h agg cnt W b Wr := by
  funext i
  obtain ⟨r, q, rfl⟩ : ∃ (r : Fin 100000) (q : Fin 64), i = ix2 r q := ⟨i 0, i 1, eq_ix2 i⟩
  rw [sageArrK_ix2, sageArr_ix2]
  unfold sageAt
  rw [colN_apply]
  have hW : (fun k : Fin 64 => transpose S64x64 [1, 0] W transposes_S64x64_S64x64_1_0 (ix2 k q)) = fun k => W (ix2 q k) :=
    funext fun k => transpose64_apply W k q
  have hWr : (fun k : Fin 64 => transpose S64x64 [1, 0] Wr transposes_S64x64_S64x64_1_0 (ix2 k q)) = fun k => Wr (ix2 q k) :=
    funext fun k => transpose64_apply Wr k q
  rw [hW, hWr]

/-- A region's head is the specification's head. -/
theorem poolArrK_eq (ps : S2048x64.Idx → EReal) (gc : S2048.Idx → EReal) (Wo : S2x64.Idx → EReal) (bo : S2.Idx → EReal) :
    poolArrK ps (broadcastInDim S2048x1 ![0] bcast_S2048_S2048x1_0 gc) (transpose S64x2 [1, 0] Wo transposes_S2x64_S64x2_1_0) bo
    = poolArr ps gc Wo bo := by
  funext i
  obtain ⟨g, q, rfl⟩ : ∃ (g : Fin 2048) (q : Fin 2), i = ix2 g q := ⟨i 0, i 1, eq_ix2 i⟩
  rw [poolArrK_ix2, poolArr_ix2]
  unfold poolAt
  rw [colG_apply]
  have hW : (fun k : Fin 64 => transpose S64x2 [1, 0] Wo transposes_S2x64_S64x2_1_0 (ix2 k q)) = fun k => Wo (ix2 q k) :=
    funext fun k => transpose2_apply Wo k q
  rw [hW]

end Cert.Sage

end
-- ==== Proof.KBody.lean ====
/-
  The three kernel bodies read at one output entry.

  Each region's body is one pure function of the blocks it loads. At the ideal values the format changes are the
  identity, a product of matrices at an entry is the sum over the contraction coordinate, a column of reciprocals
  laid along a row's entries is that row's one reciprocal, and the bias laid down the rows is the bias entry of the
  column: so an entry of a SAGE body is `sageRow` of the aggregate row, the node's own row, the count, the two weight
  columns and the bias entry, and an entry of the pooled head is `poolRow` likewise.
-/
import proofs.«148845_j88648124990545_2_alg».proof.Proof.Spec
import proofs.«148845_j88648124990545_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Idealize.ShloMosaic Idealize.ShloMosaic.ValueIdx Cert.KernelIdeal Cert.KernelIdeal.Gen

/-! ## Layout: a column laid along the rows' entries, a vector laid down the rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `b` entries cast to one row and broadcast down `a` rows reads, at `(p, c)`, its entry `c`. -/
theorem broadcastTo_row_apply {α : Type} {a b : ℕ} (v : (⟨1, ![b]⟩ : Shape).Idx → α)
    (h1 : (⟨1, ![b]⟩ : Shape).ShapeCasts ⟨2, ![1, b]⟩) (h : (⟨2, ![1, b]⟩ : Shape).Broadcasts ⟨2, ![a, b]⟩)
    (p : Fin a) (c : Fin b) :
    broadcastTo ⟨2, ![a, b]⟩ (shapeCast ⟨2, ![1, b]⟩ v h1) h (ix2 p c) = v (ix1 c) :=
  (broadcastTo_1b_ab_apply _ h p c).trans (shapeCast_a_1a_apply v h1 (0 : Fin 1) c)

/-! ## The matrix products at an entry

The products contract one axis: the left operand's columns against the right operand's rows. At output entry
`(p, q)` and contraction coordinate `k` the operands are read at `(p, k)` and `(k, q)`. -/

theorem lhs_sage_0 (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_sage_1 (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhs_sage_0 (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhs_sage_1 (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The SAGE bodies' product `[5000, 64] × [64, 64]` into the zero splat, at `(p, q)`: the sum over the contraction
    coordinate of the row's entries against the column's. -/
theorem matmul_sage_apply {φ₁ φ₂ : FTy} (L : FVec Ideal S5000x64 φ₁) (R : FVec Ideal S64x64 φ₂) (p : Fin 5000) (q : Fin 64) :
    matmul dot_S5000x64_S64x64_S5000x64_1_0_0_1_n_n none L R (constant S5000x64 .f32 0x00000000#32) (ix2 p q)
      = ∑ k : Fin 64, L (ix2 p k) * R (ix2 k q) := by
  show FloatOps.matmul dot_S5000x64_S64x64_S5000x64_1_0_0_1_n_n none L R (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_sage_0 _ _
    | ⟨1, _⟩ => exact (lhs_sage_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_sage_0 _ _).trans hk
    | ⟨1, _⟩ => exact rhs_sage_1 _ _)
  rw [el, er]

theorem lhs_pool_0 (i : S2048x2.Idx) (κ : dot_S2048x64_S64x2_S2048x2_1_0_0_1_n_n.contr.Idx) : (dot_S2048x64_S64x2_S2048x2_1_0_0_1_n_n.lhsIdx i κ 0).val = (i 0).val := by
  unfold DotDims.lhsIdx
  rw [dif_neg (show ¬(0 : Fin S2048x64.rank) ∈ dot_S2048x64_S64x2_S2048x2_1_0_0_1_n_n.lhsBatch by decide), dif_pos (show (0 : Fin S2048x64.rank) ∈ dot_S2048x64_S64x2_S2048x2_1_0_0_1_n_n.lhsNonContracting by decide)]
  rfl
theorem lhs_pool_1 (i : S2048x2.Idx) (κ : dot_S2048x64_S64x2_S2048x2_1_0_0_1_n_n.contr.Idx) : (dot_S2048x64_S64x2_S2048x2_1_0_0_1_n_n.lhsIdx i κ 1).val = (κ ⟨0, by decide⟩).val :=
  dot_S2048x64_S64x2_S2048x2_1_0_0_1_n_n.lhsIdx_val_of_single rfl i κ
theorem rhs_pool_0 (i : S2048x2.Idx) (κ : dot_S2048x64_S64x2_S2048x2_1_0_0_1_n_n.contr.Idx) : (dot_S2048x64_S64x2_S2048x2_1_0_0_1_n_n.rhsIdx i κ 0).val = (κ ⟨0, by decide⟩).val :=
  dot_S2048x64_S64x2_S2048x2_1_0_0_1_n_n.rhsIdx_val_of_single rfl i κ
theorem rhs_pool_1 (i : S2048x2.Idx) (κ : dot_S2048x64_S64x2_S2048x2_1_0_0_1_n_n.contr.Idx) : (dot_S2048x64_S64x2_S2048x2_1_0_0_1_n_n.rhsIdx i κ 1).val = (i 1).val := by
  unfold DotDims.rhsIdx
  rw [dif_neg (show ¬(1 : Fin S64x2.rank) ∈ dot_S2048x64_S64x2_S2048x2_1_0_0_1_n_n.rhsBatch by decide), dif_pos (show (1 : Fin S64x2.rank) ∈ dot_S2048x64_S64x2_S2048x2_1_0_0_1_n_n.rhsNonContracting by decide)]
  rfl

/-- The pooled head's product `[2048, 64] × [64, 2]` into the zero splat, at `(g, q)`. -/
theorem matmul_pool_apply {φ₁ φ₂ : FTy} (L : FVec Ideal S2048x64 φ₁) (R : FVec Ideal S64x2 φ₂) (g : Fin 2048) (q : Fin 2) :
    matmul dot_S2048x64_S64x2_S2048x2_1_0_0_1_n_n none L R (constant S2048x2 .f32 0x00000000#32) (ix2 g q)
      = ∑ k : Fin 64, L (ix2 g k) * R (ix2 k q) := by
  show FloatOps.matmul dot_S2048x64_S64x2_S2048x2_1_0_0_1_n_n none L R (constant S2048x2 .f32 0x00000000#32) (ix2 g q) = _
  rw [Ideal.matmul_constant_zero_apply, ← Equiv.sum_comp (contrEquiv1 dot_S2048x64_S64x2_S2048x2_1_0_0_1_n_n 64 rfl rfl).symm]
  refine Finset.sum_congr rfl fun k _ => ?_
  have hk := contrEquiv1_symm_val dot_S2048x64_S64x2_S2048x2_1_0_0_1_n_n 64 rfl rfl k
  have el : dot_S2048x64_S64x2_S2048x2_1_0_0_1_n_n.lhsIdx (ix2 g q) ((contrEquiv1 dot_S2048x64_S64x2_S2048x2_1_0_0_1_n_n 64 rfl rfl).symm k) = ix2 g k := funext fun a => Fin.ext (by
    match a with
    | ⟨0, _⟩ => exact lhs_pool_0 _ _
    | ⟨1, _⟩ => exact (lhs_pool_1 _ _).trans hk)
  have er : dot_S2048x64_S64x2_S2048x2_1_0_0_1_n_n.rhsIdx (ix2 g q) ((contrEquiv1 dot_S2048x64_S64x2_S2048x2_1_0_0_1_n_n 64 rfl rfl).symm k) = ix2 k q := funext fun a => Fin.ext (by
    match a with
    | ⟨0, _⟩ => exact (rhs_pool_0 _ _).trans hk
    | ⟨1, _⟩ => exact rhs_pool_1 _ _)
  rw [el, er]

/-! ## The bodies at an entry -/

/-- An entry of region 0's body: `sageRow` of the aggregate row, the node's own row, the count of the row, the two
    weight columns and the bias entry. -/
theorem k0_pay1_apply (v0 : Vec Ideal S5000x1 .bf16) (v7 : Vec Ideal S5000x64 .f32) (v11 : Vec Ideal S5000x64 .f32)
    (v15 : Vec Ideal S64x64 .f32) (v18 : Vec Ideal S64x64 .f32) (v22 : Vec Ideal S64 .f32) (p : Fin 5000) (q : Fin 64) :
    k0_pay1 (F := Ideal) v0 v7 v11 v15 v18 v22 (ix2 p q)
      = Cert.Sage.sageRow (fun k => v7 (ix2 p k)) (fun k => v11 (ix2 p k)) (v0 (ix2 p (0 : Fin 1)))
          (fun k => v15 (ix2 k q)) (v22 (ix1 q)) (fun k => v18 (ix2 k q)) := by
  unfold k0_pay1
  refine (truncf_apply (φ := .f32) (ψ := .bf16) _ _ _).trans ?_
  refine (maximumf_apply _ _ _).trans ?_
  unfold Cert.Sage.sageRow
  refine congrArg₂ max ?_ rfl
  refine (addf_apply _ _ _).trans ?_
  refine congrArg₂ (· + ·) ?_ ?_
  · refine (addf_apply _ _ _).trans ?_
    refine congrArg₂ (· + ·) ?_ ?_
    · refine (matmul_sage_apply _ _ p q).trans ?_
      refine Finset.sum_congr rfl fun k _ => ?_
      refine congrArg₂ (· * ·) ?_ ?_
      · refine (truncf_apply (φ := .f32) (ψ := .bf16) _ _ _).trans ?_
        refine (mulf_apply _ _ _).trans ?_
        refine congrArg₂ (· * ·) ?_ ?_
        · exact congrFun (shapeCast_self v7 _) _
        · refine (broadcastTo_a1_ab_apply _ _ p k).trans ?_
          refine (divf_apply _ _ _).trans ?_
          refine congrArg₂ Ideal.div rfl ?_
          refine (maximumf_apply _ _ _).trans ?_
          refine congrArg₂ max ?_ rfl
          refine (extf_apply (φ := .bf16) (ψ := .f32) _ _ _).trans ?_
          exact congrFun (shapeCast_self v0 _) _
      · refine (truncf_apply (φ := .f32) (ψ := .bf16) _ _ _).trans ?_
        exact congrFun (shapeCast_self v15 _) _
    · exact broadcastTo_row_apply v22 _ _ p q
  · refine (matmul_sage_apply _ _ p q).trans ?_
    refine Finset.sum_congr rfl fun k _ => ?_
    refine congrArg₂ (· * ·) ?_ ?_
    · refine (truncf_apply (φ := .f32) (ψ := .bf16) _ _ _).trans ?_
      exact congrFun (shapeCast_self v11 _) _
    · refine (truncf_apply (φ := .f32) (ψ := .bf16) _ _ _).trans ?_
      exact congrFun (shapeCast_self v18 _) _

/-- An entry of region 1's body: `sageRow` of the aggregate row, the node's own row, the count of the row, the two
    weight columns and the bias entry. -/
theorem k1_pay1_apply (v0 : Vec Ideal S5000x1 .bf16) (v7 : Vec Ideal S5000x64 .f32) (v11 : Vec Ideal S5000x64 .bf16)
    (v14 : Vec Ideal S64x64 .f32) (v17 : Vec Ideal S64x64 .f32) (v21 : Vec Ideal S64 .f32) (p : Fin 5000) (q : Fin 64) :
    k1_pay1 (F := Ideal) v0 v7 v11 v14 v17 v21 (ix2 p q)
      = Cert.Sage.sageRow (fun k => v7 (ix2 p k)) (fun k => v11 (ix2 p k)) (v0 (ix2 p (0 : Fin 1)))
          (fun k => v14 (ix2 k q)) (v21 (ix1 q)) (fun k => v17 (ix2 k q)) := by
  unfold k1_pay1
  refine (truncf_apply (φ := .f32) (ψ := .bf16) _ _ _).trans ?_
  refine (maximumf_apply _ _ _).trans ?_
  unfold Cert.Sage.sageRow
  refine congrArg₂ max ?_ rfl
  refine (addf_apply _ _ _).trans ?_
  refine congrArg₂ (· + ·) ?_ ?_
  · refine (addf_apply _ _ _).trans ?_
    refine congrArg₂ (· + ·) ?_ ?_
    · refine (matmul_sage_apply _ _ p q).trans ?_
      refine Finset.sum_congr rfl fun k _ => ?_
      refine congrArg₂ (· * ·) ?_ ?_
      · refine (truncf_apply (φ := .f32) (ψ := .bf16) _ _ _).trans ?_
        refine (mulf_apply _ _ _).trans ?_
        refine congrArg₂ (· * ·) ?_ ?_
        · exact congrFun (shapeCast_self v7 _) _
        · refine (broadcastTo_a1_ab_apply _ _ p k).trans ?_
          refine (divf_apply _ _ _).trans ?_
          refine congrArg₂ Ideal.div rfl ?_
          refine (maximumf_apply _ _ _).trans ?_
          refine congrArg₂ max ?_ rfl
          refine (extf_apply (φ := .bf16) (ψ := .f32) _ _ _).trans ?_
          exact congrFun (shapeCast_self v0 _) _
      · refine (truncf_apply (φ := .f32) (ψ := .bf16) _ _ _).trans ?_
        exact congrFun (shapeCast_self v14 _) _
    · exact broadcastTo_row_apply v21 _ _ p q
  · refine (matmul_sage_apply _ _ p q).trans ?_
    refine Finset.sum_congr rfl fun k _ => ?_
    refine congrArg₂ (· * ·) ?_ ?_
    · exact congrFun (shapeCast_self v11 _) _
    · refine (truncf_apply (φ := .f32) (ψ := .bf16) _ _ _).trans ?_
      exact congrFun (shapeCast_self v17 _) _

/-- An entry of the pooled head's body: `poolRow` of the pooled row, the graph's size, the weight column and the bias
    entry. -/
theorem k2_pay1_apply (v0 : Vec Ideal S2048x1 .f32) (v6 : Vec Ideal S2048x64 .f32) (v11 : Vec Ideal S64x2 .f32)
    (v15 : Vec Ideal S2 .f32) (g : Fin 2048) (q : Fin 2) :
    k2_pay1 (F := Ideal) v0 v6 v11 v15 (ix2 g q)
      = Cert.Sage.poolRow (fun k => v6 (ix2 g k)) (v0 (ix2 g (0 : Fin 1))) (fun k => v11 (ix2 k q)) (v15 (ix1 q)) := by
  unfold k2_pay1
  refine (addf_apply _ _ _).trans ?_
  unfold Cert.Sage.poolRow
  refine congrArg₂ (· + ·) ?_ ?_
  · refine (matmul_pool_apply _ _ g q).trans ?_
    refine Finset.sum_congr rfl fun k _ => ?_
    refine congrArg₂ (· * ·) ?_ ?_
    · refine (truncf_apply (φ := .f32) (ψ := .bf16) _ _ _).trans ?_
      refine (mulf_apply _ _ _).trans ?_
      refine congrArg₂ (· * ·) ?_ ?_
      · exact congrFun (shapeCast_self v6 _) _
      · refine (broadcastTo_a1_ab_apply _ _ g k).trans ?_
        refine (divf_apply _ _ _).trans ?_
        refine congrArg₂ Ideal.div rfl ?_
        refine (maximumf_apply _ _ _).trans ?_
        refine congrArg₂ max ?_ rfl
        exact congrFun (shapeCast_self v0 _) _
    · refine (truncf_apply (φ := .f32) (ψ := .bf16) _ _ _).trans ?_
      exact congrFun (shapeCast_self v11 _) _
  · exact broadcastTo_row_apply v15 _ _ g q

end Cert.Sage.Body

end
-- ==== Proof.KRegion.lean ====
/-
  The three regions' output arrays after their runs, as functions of the arrays the regions find.

  A region runs its body once per grid point on the blocks its windows name and writes the body's result back
  through the output window's block. Block `t` of a SAGE region's operands is rows `5000·t … 5000·t + 4999` of
  the node arrays (the weights and the bias are whole at every point), so what point `t` writes back is block `t`
  of the layer's whole-array function; the twenty blocks cover the 100000 rows, so the output array ends holding that
  function. The pooled head has one point whose blocks are the whole arrays.
-/
import proofs.«148845_j88648124990545_2_alg».proof.Proof.KBody
import proofs.«148845_j88648124990545_2_alg».proof.Proof.Gen.KernelIdeal.Frame
import Idealize.ShloMosaic.Lib.Pipeline.Value

noncomputable section

namespace Cert.Sage.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: a SAGE layer on twenty blocks of 5000 rows -/

/-- The printed index maps, decided over the grid: at point `t` the node arrays' windows (the node rows, the
    aggregates, the counts, the output) are at block `(t, 0)`, the weights' and the bias's at block zero. -/
theorem idx_facts0 : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- What point `t` writes back is block `t` of the layer's whole-array function of the arrays the region finds. -/
theorem flushed0_eq (c : Dev nD) (t : Fin cfg0.N) :
    (dat0 (F := Ideal) V c).flushed 6 t = ((cfg0.win 6).blk t).view.read (Elt Ideal)
      (Cert.Sage.sageArrK (V c main_v10) (V c main_v26) (V c main_v16) (V c main_v27) (V c main_arg5) (V c main_v28)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S5000x1) hz2, View.ld_unit_zero (S := S64x64) hz2, View.ld_unit_zero (S := S64) hz1]
  obtain ⟨e60, e61, e00, e01, e10, e11, e20, e21, e30, e31, e40, e50, e51⟩ := idx_facts0 t
  funext j
  obtain ⟨p, q, rfl⟩ : ∃ (p : Fin 5000) (q : Fin 64), j = ix2 p q := ⟨j 0, j 1, eq_ix2 j⟩
  show k0_pay1 (iblk0 V c 2 t) (iblk0 V c 1 t) (iblk0 V c 0 t) (iblk0 V c 3 t) (iblk0 V c 5 t) (iblk0 V c 4 t) (ix2 p q)
    = Cert.Sage.sageArrK (V c main_v10) (V c main_v26) (V c main_v16) (V c main_v27) (V c main_arg5) (V c main_v28) (((cfg0.win 6).blk t).view.emb (ix2 p q))
  refine (Cert.Sage.Body.k0_pay1_apply _ _ _ _ _ _ p q).trans ?_
  have hp : p.val < 5000 := p.isLt
  have ht : t.val < 20 := t.isLt
  -- the row of the node arrays under row `p` of block `t`
  have hi : ((cfg0.win 6).blk t).view.emb (ix2 p q) = ix2 (⟨t.val * 5000 + p.val, by omega⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  rw [hi, Cert.Sage.sageArrK_ix2]
  have h0 : ∀ k : Fin 64, iblk0 V c 0 t (ix2 p k) = V c main_v10 (ix2 (⟨t.val * 5000 + p.val, by omega⟩ : Fin 100000) k) := fun k => by
    show V c main_v10 (((cfg0.win 0).blk t).view.emb (ix2 p k)) = V c main_v10 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ k : Fin 64, iblk0 V c 1 t (ix2 p k) = V c main_v26 (ix2 (⟨t.val * 5000 + p.val, by omega⟩ : Fin 100000) k) := fun k => by
    show V c main_v26 (((cfg0.win 1).blk t).view.emb (ix2 p k)) = V c main_v26 _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  have h2 : iblk0 V c 2 t (ix2 p (0 : Fin 1)) = V c main_v16 (ix2 (⟨t.val * 5000 + p.val, by omega⟩ : Fin 100000) (0 : Fin 1)) := by
    show V c main_v16 (((cfg0.win 2).blk t).view.emb (ix2 p (0 : Fin 1))) = V c main_v16 _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : ∀ k : Fin 64, iblk0 V c 3 t (ix2 k q) = V c main_v27 (ix2 k q) := fun k => by
    show V c main_v27 (((cfg0.win 3).blk t).view.emb (ix2 k q)) = V c main_v27 _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  have h4 : iblk0 V c 4 t (ix1 q) = V c main_arg5 (ix1 q) := by
    show V c main_arg5 (((cfg0.win 4).blk t).view.emb (ix1 q)) = V c main_arg5 _
    refine congrArg _ (funext fun a => Fin.ext ?_)
    match a with
    | ⟨0, _⟩ => show win0_4.index t (0 : Fin 1) * 64 + 1 * q.val = q.val; omega
  have h5 : ∀ k : Fin 64, iblk0 V c 5 t (ix2 k q) = V c main_v28 (ix2 k q) := fun k => by
    show V c main_v28 (((cfg0.win 5).blk t).view.emb (ix2 k q)) = V c main_v28 _
    refine congrArg _ (funext fun a => Fin.ext ?_)
    match a with
    | ⟨0, _⟩ => show win0_5.index t (0 : Fin 2) * 64 + 1 * k.val = k.val; omega
    | ⟨1, _⟩ => show win0_5.index t (1 : Fin 2) * 64 + 1 * q.val = q.val; omega
  rw [funext h0, funext h1, h2, funext h3, h4, funext h5]

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v29).slice (win0_6.rect t)).set ↔ _
  rw [View.set_slice_whole, Rect.mem_set_unit]
  exact Iff.rfl

/-- Row `r` of the output is in the block of point `r / 5000`: the twenty blocks cover the array. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := rfl
  let t : Fin cfg0.N := ⟨(i 0).val / 5000, by rw [hN]; omega⟩
  have htv : t.val = (i 0).val / 5000 := rfl
  obtain ⟨e60, e61, -⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The output array after region 0: the layer's whole-array function of the arrays the region finds. -/
theorem final0 (c : Dev nD) : (dat0 (F := Ideal) V c).arrAt 6 cfg0.N
    = Cert.Sage.sageArrK (V c main_v10) (V c main_v26) (V c main_v16) (V c main_v27) (V c main_arg5) (V c main_v28) :=
  (dat0 (F := Ideal) V c).arrAt_eq_of_cover 6 (Cert.Sage.sageArrK (V c main_v10) (V c main_v26) (V c main_v16) (V c main_v27) (V c main_arg5) (V c main_v28))
    (fun t _ => flushed0_eq V c t) cover0

/-! ## Region 1: a SAGE layer on twenty blocks of 5000 rows -/

/-- The printed index maps, decided over the grid: at point `t` the node arrays' windows (the node rows, the
    aggregates, the counts, the output) are at block `(t, 0)`, the weights' and the bias's at block zero. -/
theorem idx_facts1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- What point `t` writes back is block `t` of the layer's whole-array function of the arrays the region finds. -/
theorem flushed1_eq (c : Dev nD) (t : Fin cfg1.N) :
    (dat1 (F := Ideal) V c).flushed 6 t = ((cfg1.win 6).blk t).view.read (Elt Ideal)
      (Cert.Sage.sageArrK (V c main_v29) (V c main_v40) (V c main_v16) (V c main_v41) (V c main_arg8) (V c main_v42)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2, View.ld_unit_zero (S := S64x64) hz2, View.ld_unit_zero (S := S64) hz1]
  obtain ⟨e60, e61, e00, e01, e10, e11, e20, e21, e30, e31, e40, e50, e51⟩ := idx_facts1 t
  funext j
  obtain ⟨p, q, rfl⟩ : ∃ (p : Fin 5000) (q : Fin 64), j = ix2 p q := ⟨j 0, j 1, eq_ix2 j⟩
  show k1_pay1 (iblk1 V c 2 t) (iblk1 V c 1 t) (iblk1 V c 0 t) (iblk1 V c 3 t) (iblk1 V c 5 t) (iblk1 V c 4 t) (ix2 p q)
    = Cert.Sage.sageArrK (V c main_v29) (V c main_v40) (V c main_v16) (V c main_v41) (V c main_arg8) (V c main_v42) (((cfg1.win 6).blk t).view.emb (ix2 p q))
  refine (Cert.Sage.Body.k1_pay1_apply _ _ _ _ _ _ p q).trans ?_
  have hp : p.val < 5000 := p.isLt
  have ht : t.val < 20 := t.isLt
  -- the row of the node arrays under row `p` of block `t`
  have hi : ((cfg1.win 6).blk t).view.emb (ix2 p q) = ix2 (⟨t.val * 5000 + p.val, by omega⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  rw [hi, Cert.Sage.sageArrK_ix2]
  have h0 : ∀ k : Fin 64, iblk1 V c 0 t (ix2 p k) = V c main_v29 (ix2 (⟨t.val * 5000 + p.val, by omega⟩ : Fin 100000) k) := fun k => by
    show V c main_v29 (((cfg1.win 0).blk t).view.emb (ix2 p k)) = V c main_v29 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ k : Fin 64, iblk1 V c 1 t (ix2 p k) = V c main_v40 (ix2 (⟨t.val * 5000 + p.val, by omega⟩ : Fin 100000) k) := fun k => by
    show V c main_v40 (((cfg1.win 1).blk t).view.emb (ix2 p k)) = V c main_v40 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  have h2 : iblk1 V c 2 t (ix2 p (0 : Fin 1)) = V c main_v16 (ix2 (⟨t.val * 5000 + p.val, by omega⟩ : Fin 100000) (0 : Fin 1)) := by
    show V c main_v16 (((cfg1.win 2).blk t).view.emb (ix2 p (0 : Fin 1))) = V c main_v16 _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ∀ k : Fin 64, iblk1 V c 3 t (ix2 k q) = V c main_v41 (ix2 k q) := fun k => by
    show V c main_v41 (((cfg1.win 3).blk t).view.emb (ix2 k q)) = V c main_v41 _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  have h4 : iblk1 V c 4 t (ix1 q) = V c main_arg8 (ix1 q) := by
    show V c main_arg8 (((cfg1.win 4).blk t).view.emb (ix1 q)) = V c main_arg8 _
    refine congrArg _ (funext fun a => Fin.ext ?_)
    match a with
    | ⟨0, _⟩ => show win1_4.index t (0 : Fin 1) * 64 + 1 * q.val = q.val; omega
  have h5 : ∀ k : Fin 64, iblk1 V c 5 t (ix2 k q) = V c main_v42 (ix2 k q) := fun k => by
    show V c main_v42 (((cfg1.win 5).blk t).view.emb (ix2 k q)) = V c main_v42 _
    refine congrArg _ (funext fun a => Fin.ext ?_)
    match a with
    | ⟨0, _⟩ => show win1_5.index t (0 : Fin 2) * 64 + 1 * k.val = k.val; omega
    | ⟨1, _⟩ => show win1_5.index t (1 : Fin 2) * 64 + 1 * q.val = q.val; omega
  rw [funext h0, funext h1, h2, funext h3, h4, funext h5]

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- Row `r` of the output is in the block of point `r / 5000`: the twenty blocks cover the array. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := rfl
  let t : Fin cfg1.N := ⟨(i 0).val / 5000, by rw [hN]; omega⟩
  have htv : t.val = (i 0).val / 5000 := rfl
  obtain ⟨e60, e61, -⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after region 1: the layer's whole-array function of the arrays the region finds. -/
theorem final1 (c : Dev nD) : (dat1 (F := Ideal) V c).arrAt 6 cfg1.N
    = Cert.Sage.sageArrK (V c main_v29) (V c main_v40) (V c main_v16) (V c main_v41) (V c main_arg8) (V c main_v42) :=
  (dat1 (F := Ideal) V c).arrAt_eq_of_cover 6 (Cert.Sage.sageArrK (V c main_v29) (V c main_v40) (V c main_v16) (V c main_v41) (V c main_arg8) (V c main_v42))
    (fun t _ => flushed1_eq V c t) cover1

/-! ## Region 2: the pooled head, one point on whole arrays -/

/-- The printed index maps, decided over the grid's one point: every window is at block zero. -/
theorem idx_facts2 : ∀ t : Fin cfg2.N,
    win2_4.index t (0 : Fin 2) = 0 ∧ win2_4.index t (1 : Fin 2) = 0
    ∧ win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0 :=
  (by decide +kernel : ∀ t : Fin grid2.N, _)

/-- What the point writes back is its block of the head's whole-array function of the arrays the region finds. -/
theorem flushed2_eq (c : Dev nD) (t : Fin cfg2.N) :
    (dat2 (F := Ideal) V c).flushed 4 t = ((cfg2.win 4).blk t).view.read (Elt Ideal)
      (Cert.Sage.poolArrK (V c main_v52) (V c main_v48) (V c main_v53) (V c main_arg11)) := by
  show (cfg2.win 4).cut (grid2.coords t) ((dat2 V c).after 4 t) = _
  rw [after2_4]
  unfold out2_4
  rw [View.canon_unit_zero hz2]
  simp only [View.ld_unit_zero (S := S2048x64) hz2, View.ld_unit_zero (S := S2048x1) hz2, View.ld_unit_zero (S := S64x2) hz2, View.ld_unit_zero (S := S2) hz1]
  obtain ⟨e40, e41, e00, e01, e10, e11, e20, e21, e30⟩ := idx_facts2 t
  funext j
  obtain ⟨g, q, rfl⟩ : ∃ (g : Fin 2048) (q : Fin 2), j = ix2 g q := ⟨j 0, j 1, eq_ix2 j⟩
  show k2_pay1 (iblk2 V c 1 t) (iblk2 V c 0 t) (iblk2 V c 2 t) (iblk2 V c 3 t) (ix2 g q)
    = Cert.Sage.poolArrK (V c main_v52) (V c main_v48) (V c main_v53) (V c main_arg11) (((cfg2.win 4).blk t).view.emb (ix2 g q))
  refine (Cert.Sage.Body.k2_pay1_apply _ _ _ _ g q).trans ?_
  have hi : ((cfg2.win 4).blk t).view.emb (ix2 g q) = ix2 g q := by
    funext a; apply Fin.ext
    match a with
    | ⟨0, _⟩ => show win2_4.index t (0 : Fin 2) * 2048 + 1 * g.val = g.val; omega
    | ⟨1, _⟩ => show win2_4.index t (1 : Fin 2) * 2 + 1 * q.val = q.val; omega
  rw [hi, Cert.Sage.poolArrK_ix2]
  have h0 : ∀ k : Fin 64, iblk2 V c 0 t (ix2 g k) = V c main_v52 (ix2 g k) := fun k => by
    show V c main_v52 (((cfg2.win 0).blk t).view.emb (ix2 g k)) = V c main_v52 _
    refine congrArg _ (funext fun a => Fin.ext ?_)
    match a with
    | ⟨0, _⟩ => show win2_0.index t (0 : Fin 2) * 2048 + 1 * g.val = g.val; omega
    | ⟨1, _⟩ => show win2_0.index t (1 : Fin 2) * 64 + 1 * k.val = k.val; omega
  have h1 : iblk2 V c 1 t (ix2 g (0 : Fin 1)) = V c main_v48 (ix2 g (0 : Fin 1)) := by
    show V c main_v48 (((cfg2.win 1).blk t).view.emb (ix2 g (0 : Fin 1))) = V c main_v48 _
    refine congrArg _ (funext fun a => Fin.ext ?_)
    match a with
    | ⟨0, _⟩ => show win2_1.index t (0 : Fin 2) * 2048 + 1 * g.val = g.val; omega
    | ⟨1, _⟩ => show win2_1.index t (1 : Fin 2) * 1 + 1 * 0 = 0; omega
  have h2 : ∀ k : Fin 64, iblk2 V c 2 t (ix2 k q) = V c main_v53 (ix2 k q) := fun k => by
    show V c main_v53 (((cfg2.win 2).blk t).view.emb (ix2 k q)) = V c main_v53 _
    refine congrArg _ (funext fun a => Fin.ext ?_)
    match a with
    | ⟨0, _⟩ => show win2_2.index t (0 : Fin 2) * 64 + 1 * k.val = k.val; omega
    | ⟨1, _⟩ => show win2_2.index t (1 : Fin 2) * 2 + 1 * q.val = q.val; omega
  have h3 : iblk2 V c 3 t (ix1 q) = V c main_arg11 (ix1 q) := by
    show V c main_arg11 (((cfg2.win 3).blk t).view.emb (ix1 q)) = V c main_arg11 _
    refine congrArg _ (funext fun a => Fin.ext ?_)
    match a with
    | ⟨0, _⟩ => show win2_3.index t (0 : Fin 1) * 2 + 1 * q.val = q.val; omega
  rw [funext h0, h1, funext h2, h3]

/-- An index of the output array is in the point's block iff each coordinate is in the block's range on its axis. -/
theorem mem_blk2 (t : Fin cfg2.N) (i : S2048x2.Idx) :
    i ∈ ((cfg2.win 4).blk t).view.set ↔ ∀ a : Fin 2, win2_4.index t a * S2048x2.size a ≤ (i a).val ∧ (i a).val < win2_4.index t a * S2048x2.size a + S2048x2.size a := by
  show i ∈ ((View.whole main_v54).slice (win2_4.rect t)).set ↔ _
  rw [View.set_slice_whole, Rect.mem_set_unit]
  exact Iff.rfl

/-- The one block is the whole output array. -/
theorem cover2 (i : S2048x2.Idx) :
    ∃ t : Fin cfg2.N, (cfg2.win 4).flush t = true ∧ i ∈ ((cfg2.win 4).blk t).view.set := by
  have hi0 : (i 0).val < 2048 := (i 0).isLt
  have hi1 : (i 1).val < 2 := (i 1).isLt
  have hN : cfg2.N = 1 := rfl
  let t : Fin cfg2.N := ⟨0, by rw [hN]; omega⟩
  obtain ⟨e40, e41, -⟩ := idx_facts2 t
  refine ⟨t, flush2_4 t, ?_⟩
  rw [mem_blk2]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 2 ≤ (i 1).val ∧ (i 1).val < win2_4.index t (1 : Fin 2) * 2 + 2; omega

/-- The output array after region 2: the head's whole-array function of the arrays the region finds. -/
theorem final2 (c : Dev nD) : (dat2 (F := Ideal) V c).arrAt 4 cfg2.N
    = Cert.Sage.poolArrK (V c main_v52) (V c main_v48) (V c main_v53) (V c main_arg11) :=
  (dat2 (F := Ideal) V c).arrAt_eq_of_cover 4 (Cert.Sage.poolArrK (V c main_v52) (V c main_v48) (V c main_v53) (V c main_arg11))
    (fun t _ => flushed2_eq V c t) cover2

end Cert.Sage.Region

end
-- ==== Proof.KRun.lean ====
/-
  The kernel program's run with its RESULT named: every weakly fair execution of @main terminates, nothing
  faulting, with the result array at what the last region's write-backs leave there (the fold of the buffer
  contents through the three host stretches and the three regions) and the argument arrays as launched.
-/
import proofs.«148845_j88648124990545_2_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments of @main launched from `m`; the last thread state holds every unscoped buffer at the
    last boundary's contents, read against the final state: the result buffer at those contents, each argument
    walked back through the fold to the launch memory. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Sage.Run

end
-- ==== Proof.KValue.lean ====
/-
  The kernel program's result as a function of the argument arrays. Each region's output array is the layer (or
  the head) of the arrays the region was entered with; those are the host stretches' terms of the previous
  region's output and of the arguments; so the fold of the buffer contents through @main, read at the result
  buffer, is the specification's composite `outOf`.
-/
import proofs.«148845_j88648124990545_2_alg».proof.Proof.KVal1a
import proofs.«148845_j88648124990545_2_alg».proof.Proof.KVal5
import proofs.«148845_j88648124990545_2_alg».proof.Proof.KForms
import proofs.«148845_j88648124990545_2_alg».proof.Proof.KRegion
import proofs.«148845_j88648124990545_2_alg».proof.Proof.KRun

set_option maxRecDepth 16384

noncomputable section

namespace Cert.Sage.Val

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-- The first region leaves the first layer's output. -/
theorem W2_v29 : W2 (F := Ideal) m ρ c (Proc.devRef .tc main_v29) = h1Of (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 6).trans ?_
  rw [Cert.Sage.Region.final0 (V1 m ρ) c]
  show sageArrK (W1 m ρ c (Proc.devRef .tc main_v10)) (W1 m ρ c (Proc.devRef .tc main_v26)) (W1 m ρ c (Proc.devRef .tc main_v16))
    (W1 m ρ c (Proc.devRef .tc main_v27)) (W1 m ρ c (Proc.devRef .tc main_arg5)) (W1 m ρ c (Proc.devRef .tc main_v28)) = _
  rw [W1_v10, W1_v26, W1_v16, W1_v27, W1_arg5, W1_v28]
  exact sageArrK_eq _ _ _ _ _ _

/-- The second region leaves the second layer's output. -/
theorem W4_v43 : W4 (F := Ideal) m ρ c (Proc.devRef .tc main_v43) = h2Of (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 6).trans ?_
  rw [Cert.Sage.Region.final1 (V3 m ρ) c]
  show sageArrK (W3 m ρ c (Proc.devRef .tc main_v29)) (W3 m ρ c (Proc.devRef .tc main_v40)) (W3 m ρ c (Proc.devRef .tc main_v16))
    (W3 m ρ c (Proc.devRef .tc main_v41)) (W3 m ρ c (Proc.devRef .tc main_arg8)) (W3 m ρ c (Proc.devRef .tc main_v42)) = _
  rw [W3_v29_skip, W3_v40, W3_v16, W3_v41, W3_arg8, W3_v42, W2_v29]
  exact sageArrK_eq _ _ _ _ _ _

/-- The third region leaves the pooled head's output: the program's result. -/
theorem W6_v54 : W6 (F := Ideal) m ρ c (Proc.devRef .tc main_v54) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 4).trans ?_
  rw [Cert.Sage.Region.final2 (V5 m ρ) c]
  show poolArrK (W5 m ρ c (Proc.devRef .tc main_v52)) (W5 m ρ c (Proc.devRef .tc main_v48))
    (W5 m ρ c (Proc.devRef .tc main_v53)) (W5 m ρ c (Proc.devRef .tc main_arg11)) = _
  rw [W5_v52, W5_v48, W5_v53, W5_arg11, W4_v43]
  exact poolArrK_eq _ _ _ _

/-- The kernel program's run: it terminates with the result at `outOf` of the arguments, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v54) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v54 m ρ c), (h c).2⟩) (Cert.Sage.Run.run_result m ρ)

end Cert.Sage.Val

end
-- ==== Proof.RefValue.lean ====
/-
  The reference program computes the specification's output.

  Each of the reference's three arithmetic stretches — the two SAGE layers and the pooled head — is read entry by
  entry from its stages: a mean row is the neighbour (or per-graph) sum DIVIDED by the count clamped below by one,
  where the specification MULTIPLIES by the reciprocal of the clamped count; the clamped count is at least one, so
  the two agree at every extended real (Cert.Sage.div_clamped), and the contractions, biases and the clamp at zero
  are the same sums and maxima. Between the stretches the reference applies the same index wrapping, gathers and
  scatter-adds as the specification to the same arrays; those are carried as the host's own operations.
-/
import proofs.«148845_j88648124990545_2_alg».proof.Proof.Spec
import proofs.«148845_j88648124990545_2_alg».proof.Proof.Gen.ReferenceIdeal.Read
import Idealize.ShloMosaic.Lib.ValueIdx
import Idealize.ShloMosaic.PureOps.Ideal

noncomputable section

namespace Cert.Sage.Ref

open Idealize.ShloMosaic Idealize.ShloMosaic.ValueIdx Cert.ReferenceIdeal Cert.ReferenceIdeal.Gen Cert.ReferenceIdeal.Read

/-! ## One entry, the mean written as a quotient -/

/-- One entry of a SAGE layer with the mean row written as a quotient by the clamped count. -/
theorem sage_entry (h agg : S100000x64.Idx → EReal) (cnt : S100000.Idx → EReal) (W : S64x64.Idx → EReal)
    (b : S64.Idx → EReal) (Wr : S64x64.Idx → EReal) (r : Fin 100000) (q : Fin 64) :
    max (((∑ k : Fin 64, Ideal.div (agg (ix2 r k)) (max (cnt (ix1 r)) Cert.Sage.one) * W (ix2 q k)) + b (ix1 q))
        + ∑ k : Fin 64, h (ix2 r k) * Wr (ix2 q k)) Cert.Sage.zero
      = Cert.Sage.sageAt h agg cnt W b Wr r q := by
  have e : ∀ k : Fin 64, Ideal.div (agg (ix2 r k)) (max (cnt (ix1 r)) Cert.Sage.one)
      = agg (ix2 r k) * Ideal.div Cert.Sage.one (max (cnt (ix1 r)) Cert.Sage.one) := fun k => Cert.Sage.div_clamped _ _
  unfold Cert.Sage.sageAt Cert.Sage.sageRow
  simp only [e]

/-- One entry of the pooled head with the mean row written as a quotient by the clamped count. -/
theorem pool_entry (ps : S2048x64.Idx → EReal) (gc : S2048.Idx → EReal) (Wo : S2x64.Idx → EReal) (bo : S2.Idx → EReal)
    (g : Fin 2048) (q : Fin 2) :
    (∑ k : Fin 64, Ideal.div (ps (ix2 g k)) (max (gc (ix1 g)) Cert.Sage.one) * Wo (ix2 q k)) + bo (ix1 q)
      = Cert.Sage.poolAt ps gc Wo bo g q := by
  have e : ∀ k : Fin 64, Ideal.div (ps (ix2 g k)) (max (gc (ix1 g)) Cert.Sage.one)
      = ps (ix2 g k) * Ideal.div Cert.Sage.one (max (gc (ix1 g)) Cert.Sage.one) := fun k => Cert.Sage.div_clamped _ _
  unfold Cert.Sage.poolAt Cert.Sage.poolRow
  simp only [e]

/-! The stages of SAGE layer 1, read at an index given by its coordinates. -/

theorem lidx31 (r : Fin 100000) (q k : Fin 64) : lidx_main_v31 (ix2 r q) k = ix2 r k :=
  funext fun a => Fin.ext (by match a with | ⟨0, _⟩ => rfl | ⟨1, _⟩ => rfl)
theorem ridx31 (r : Fin 100000) (q k : Fin 64) : ridx_main_v31 (ix2 r q) k = ix2 k q :=
  funext fun a => Fin.ext (by match a with | ⟨0, _⟩ => rfl | ⟨1, _⟩ => rfl)
theorem idx30 (q k : Fin 64) : idx_main_v30 (ix2 k q) = ix2 q k :=
  funext fun a => Fin.ext (by match a with | ⟨0, _⟩ => rfl | ⟨1, _⟩ => rfl)
theorem idx28 (r : Fin 100000) (k : Fin 64) : idx_main_v28 (ix2 r k) = ix2 r (0 : Fin 1) :=
  funext fun a => Fin.ext (by match a with | ⟨0, _⟩ => rfl | ⟨1, _⟩ => rfl)
theorem idx27 (r : Fin 100000) : idx_main_v27 (ix2 r (0 : Fin 1)) = ix1 r :=
  funext fun a => Fin.ext (by match a with | ⟨0, _⟩ => rfl)
theorem idx33 (r : Fin 100000) (q : Fin 64) : idx_main_v33 (ix2 r q) = ix2 (0 : Fin 1) q :=
  funext fun a => Fin.ext (by match a with | ⟨0, _⟩ => rfl | ⟨1, _⟩ => rfl)
theorem idx32 (q : Fin 64) : idx_main_v32 (ix2 (0 : Fin 1) q) = ix1 q :=
  funext fun a => Fin.ext (by match a with | ⟨0, _⟩ => rfl)
theorem lidx36 (r : Fin 100000) (q k : Fin 64) : lidx_main_v36 (ix2 r q) k = ix2 r k :=
  funext fun a => Fin.ext (by match a with | ⟨0, _⟩ => rfl | ⟨1, _⟩ => rfl)
theorem ridx36 (r : Fin 100000) (q k : Fin 64) : ridx_main_v36 (ix2 r q) k = ix2 k q :=
  funext fun a => Fin.ext (by match a with | ⟨0, _⟩ => rfl | ⟨1, _⟩ => rfl)
theorem idx35 (q k : Fin 64) : idx_main_v35 (ix2 k q) = ix2 q k :=
  funext fun a => Fin.ext (by match a with | ⟨0, _⟩ => rfl | ⟨1, _⟩ => rfl)

/-- The broadcast clamped count at (r, k) is the clamped count of node r. -/
theorem clamp28_at (x1 : (⟨S2x1200000, .i32⟩ : BufTy).Contents (Elt Ideal)) (r : Fin 100000) (k : Fin 64) :
    val_main_v28 (F := Ideal) x1 (ix2 r k) = max (val_main_v24 (F := Ideal) x1 (ix1 r)) Cert.Sage.one := by
  rw [val_main_v28_apply, idx28, val_main_v27_apply, idx27, val_main_v26_apply, val_main_v25_apply,
    val_main_cst_5_apply, Ideal.maximumf_def, Ideal.ofBits_def]

/-- The mean row: the neighbour sum over the clamped count. -/
theorem mean29_at (x0 : (⟨S100000, .i32⟩ : BufTy).Contents (Elt Ideal)) (x1 : (⟨S2x1200000, .i32⟩ : BufTy).Contents (Elt Ideal)) (x3 : (⟨S10000x64, .f32⟩ : BufTy).Contents (Elt Ideal)) (r : Fin 100000) (k : Fin 64) :
    val_main_v29 (F := Ideal) x0 x1 x3 (ix2 r k)
      = Ideal.div (val_main_v20 (F := Ideal) x0 x1 x3 (ix2 r k)) (max (val_main_v24 (F := Ideal) x1 (ix1 r)) Cert.Sage.one) := by
  rw [val_main_v29_apply, clamp28_at, Ideal.hostDivf_def]

theorem wl30_at (x4 : (⟨S64x64, .f32⟩ : BufTy).Contents (Elt Ideal)) (k q : Fin 64) : val_main_v30 (F := Ideal) x4 (ix2 k q) = x4 (ix2 q k) := by
  rw [val_main_v30_apply, idx30]
theorem wr35_at (x6 : (⟨S64x64, .f32⟩ : BufTy).Contents (Elt Ideal)) (k q : Fin 64) : val_main_v35 (F := Ideal) x6 (ix2 k q) = x6 (ix2 q k) := by
  rw [val_main_v35_apply, idx35]
theorem bias33_at (x5 : (⟨S64, .f32⟩ : BufTy).Contents (Elt Ideal)) (r : Fin 100000) (q : Fin 64) : val_main_v33 (F := Ideal) x5 (ix2 r q) = x5 (ix1 q) := by
  rw [val_main_v33_apply, idx33, val_main_v32_apply, idx32]

theorem dot31_at (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (r : Fin 100000) (q : Fin 64) :
    val_main_v31 (F := Ideal) x0 x1 x3 x4 (ix2 r q)
      = ∑ k : Fin 64, Ideal.div (val_main_v20 (F := Ideal) x0 x1 x3 (ix2 r k))
          (max (val_main_v24 (F := Ideal) x1 (ix1 r)) Cert.Sage.one) * x4 (ix2 q k) := by
  rw [val_main_v31_apply]
  refine Finset.sum_congr rfl fun k _ => ?_
  rw [lidx31, ridx31, mean29_at, wl30_at]

theorem dot36_at (x0 : (⟨S100000, .i32⟩ : BufTy).Contents (Elt Ideal)) (x3 : (⟨S10000x64, .f32⟩ : BufTy).Contents (Elt Ideal)) (x6 : (⟨S64x64, .f32⟩ : BufTy).Contents (Elt Ideal)) (r : Fin 100000) (q : Fin 64) :
    val_main_v36 (F := Ideal) x0 x3 x6 (ix2 r q)
      = ∑ k : Fin 64, val_main_v10 (F := Ideal) x0 x3 (ix2 r k) * x6 (ix2 q k) := by
  rw [val_main_v36_apply]
  refine Finset.sum_congr rfl fun k _ => ?_
  rw [lidx36, ridx36, wr35_at]

/-- SAGE layer 1 of the reference is the specification's layer. -/
theorem sage38 (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v38 (F := Ideal) x0 x1 x3 x4 x5 x6
      = Cert.Sage.sageArr (val_main_v10 (F := Ideal) x0 x3) (val_main_v20 (F := Ideal) x0 x1 x3)
          (val_main_v24 (F := Ideal) x1) x4 x5 x6 := by
  funext i
  obtain ⟨r, q, rfl⟩ : ∃ (r : Fin 100000) (q : Fin 64), i = ix2 r q := ⟨i 0, i 1, eq_ix2 i⟩
  rw [Cert.Sage.sageArr_ix2, val_main_v38_apply, val_main_v37_apply, val_main_v34_apply, dot31_at, bias33_at,
    dot36_at, val_main_call0_v0_apply, val_main_call0_cst_apply, Ideal.maximumf_def, Ideal.addf_def, Ideal.addf_def, Ideal.ofBits_def]
  exact sage_entry _ _ _ _ _ _ r q

/-! The stages of SAGE layer 2, read at an index given by its coordinates. -/

theorem lidx59 (r : Fin 100000) (q k : Fin 64) : lidx_main_v59 (ix2 r q) k = ix2 r k :=
  funext fun a => Fin.ext (by match a with | ⟨0, _⟩ => rfl | ⟨1, _⟩ => rfl)
theorem ridx59 (r : Fin 100000) (q k : Fin 64) : ridx_main_v59 (ix2 r q) k = ix2 k q :=
  funext fun a => Fin.ext (by match a with | ⟨0, _⟩ => rfl | ⟨1, _⟩ => rfl)
theorem idx58 (q k : Fin 64) : idx_main_v58 (ix2 k q) = ix2 q k :=
  funext fun a => Fin.ext (by match a with | ⟨0, _⟩ => rfl | ⟨1, _⟩ => rfl)
theorem idx56 (r : Fin 100000) (k : Fin 64) : idx_main_v56 (ix2 r k) = ix2 r (0 : Fin 1) :=
  funext fun a => Fin.ext (by match a with | ⟨0, _⟩ => rfl | ⟨1, _⟩ => rfl)
theorem idx55 (r : Fin 100000) : idx_main_v55 (ix2 r (0 : Fin 1)) = ix1 r :=
  funext fun a => Fin.ext (by match a with | ⟨0, _⟩ => rfl)
theorem idx61 (r : Fin 100000) (q : Fin 64) : idx_main_v61 (ix2 r q) = ix2 (0 : Fin 1) q :=
  funext fun a => Fin.ext (by match a with | ⟨0, _⟩ => rfl | ⟨1, _⟩ => rfl)
theorem idx60 (q : Fin 64) : idx_main_v60 (ix2 (0 : Fin 1) q) = ix1 q :=
  funext fun a => Fin.ext (by match a with | ⟨0, _⟩ => rfl)
theorem lidx64 (r : Fin 100000) (q k : Fin 64) : lidx_main_v64 (ix2 r q) k = ix2 r k :=
  funext fun a => Fin.ext (by match a with | ⟨0, _⟩ => rfl | ⟨1, _⟩ => rfl)
theorem ridx64 (r : Fin 100000) (q k : Fin 64) : ridx_main_v64 (ix2 r q) k = ix2 k q :=
  funext fun a => Fin.ext (by match a with | ⟨0, _⟩ => rfl | ⟨1, _⟩ => rfl)
theorem idx63 (q k : Fin 64) : idx_main_v63 (ix2 k q) = ix2 q k :=
  funext fun a => Fin.ext (by match a with | ⟨0, _⟩ => rfl | ⟨1, _⟩ => rfl)

/-- The broadcast clamped count at (r, k) is the clamped count of node r. -/
theorem clamp56_at (x1 : (⟨S2x1200000, .i32⟩ : BufTy).Contents (Elt Ideal)) (r : Fin 100000) (k : Fin 64) :
    val_main_v56 (F := Ideal) x1 (ix2 r k) = max (val_main_v52 (F := Ideal) x1 (ix1 r)) Cert.Sage.one := by
  rw [val_main_v56_apply, idx56, val_main_v55_apply, idx55, val_main_v54_apply, val_main_v53_apply,
    val_main_cst_11_apply, Ideal.maximumf_def, Ideal.ofBits_def]

/-- The mean row: the neighbour sum over the clamped count. -/
theorem mean57_at (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (r : Fin 100000) (k : Fin 64) :
    val_main_v57 (F := Ideal) x0 x1 x3 x4 x5 x6 (ix2 r k)
      = Ideal.div (val_main_v48 (F := Ideal) x0 x1 x3 x4 x5 x6 (ix2 r k)) (max (val_main_v52 (F := Ideal) x1 (ix1 r)) Cert.Sage.one) := by
  rw [val_main_v57_apply, clamp56_at, Ideal.hostDivf_def]

theorem wl58_at (x7 : (⟨S64x64, .f32⟩ : BufTy).Contents (Elt Ideal)) (k q : Fin 64) : val_main_v58 (F := Ideal) x7 (ix2 k q) = x7 (ix2 q k) := by
  rw [val_main_v58_apply, idx58]
theorem wr63_at (x9 : (⟨S64x64, .f32⟩ : BufTy).Contents (Elt Ideal)) (k q : Fin 64) : val_main_v63 (F := Ideal) x9 (ix2 k q) = x9 (ix2 q k) := by
  rw [val_main_v63_apply, idx63]
theorem bias61_at (x8 : (⟨S64, .f32⟩ : BufTy).Contents (Elt Ideal)) (r : Fin 100000) (q : Fin 64) : val_main_v61 (F := Ideal) x8 (ix2 r q) = x8 (ix1 q) := by
  rw [val_main_v61_apply, idx61, val_main_v60_apply, idx60]

theorem dot59_at (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (r : Fin 100000) (q : Fin 64) :
    val_main_v59 (F := Ideal) x0 x1 x3 x4 x5 x6 x7 (ix2 r q)
      = ∑ k : Fin 64, Ideal.div (val_main_v48 (F := Ideal) x0 x1 x3 x4 x5 x6 (ix2 r k))
          (max (val_main_v52 (F := Ideal) x1 (ix1 r)) Cert.Sage.one) * x7 (ix2 q k) := by
  rw [val_main_v59_apply]
  refine Finset.sum_congr rfl fun k _ => ?_
  rw [lidx59, ridx59, mean57_at, wl58_at]

theorem dot64_at (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x9 : (⟨S64x64, .f32⟩ : BufTy).Contents (Elt Ideal)) (r : Fin 100000) (q : Fin 64) :
    val_main_v64 (F := Ideal) x0 x1 x3 x4 x5 x6 x9 (ix2 r q)
      = ∑ k : Fin 64, val_main_v38 (F := Ideal) x0 x1 x3 x4 x5 x6 (ix2 r k) * x9 (ix2 q k) := by
  rw [val_main_v64_apply]
  refine Finset.sum_congr rfl fun k _ => ?_
  rw [lidx64, ridx64, wr63_at]

/-- SAGE layer 2 of the reference is the specification's layer. -/
theorem sage66 (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) :
    val_main_v66 (F := Ideal) x0 x1 x3 x4 x5 x6 x7 x8 x9
      = Cert.Sage.sageArr (val_main_v38 (F := Ideal) x0 x1 x3 x4 x5 x6) (val_main_v48 (F := Ideal) x0 x1 x3 x4 x5 x6)
          (val_main_v52 (F := Ideal) x1) x7 x8 x9 := by
  funext i
  obtain ⟨r, q, rfl⟩ : ∃ (r : Fin 100000) (q : Fin 64), i = ix2 r q := ⟨i 0, i 1, eq_ix2 i⟩
  rw [Cert.Sage.sageArr_ix2, val_main_v66_apply, val_main_v65_apply, val_main_v62_apply, dot59_at, bias61_at,
    dot64_at, val_main_call1_v0_apply, val_main_call1_cst_apply, Ideal.maximumf_def, Ideal.addf_def, Ideal.addf_def, Ideal.ofBits_def]
  exact sage_entry _ _ _ _ _ _ r q

/-! The stages of the pooled head, read at an index given by its coordinates. -/

theorem lidx80 (g : Fin 2048) (q : Fin 2) (k : Fin 64) : lidx_main_v80 (ix2 g q) k = ix2 g k :=
  funext fun a => Fin.ext (by match a with | ⟨0, _⟩ => rfl | ⟨1, _⟩ => rfl)
theorem ridx80 (g : Fin 2048) (q : Fin 2) (k : Fin 64) : ridx_main_v80 (ix2 g q) k = ix2 k q :=
  funext fun a => Fin.ext (by match a with | ⟨0, _⟩ => rfl | ⟨1, _⟩ => rfl)
theorem idx79 (q : Fin 2) (k : Fin 64) : idx_main_v79 (ix2 k q) = ix2 q k :=
  funext fun a => Fin.ext (by match a with | ⟨0, _⟩ => rfl | ⟨1, _⟩ => rfl)
theorem idx77 (g : Fin 2048) (k : Fin 64) : idx_main_v77 (ix2 g k) = ix2 g (0 : Fin 1) :=
  funext fun a => Fin.ext (by match a with | ⟨0, _⟩ => rfl | ⟨1, _⟩ => rfl)
theorem idx76 (g : Fin 2048) : idx_main_v76 (ix2 g (0 : Fin 1)) = ix1 g :=
  funext fun a => Fin.ext (by match a with | ⟨0, _⟩ => rfl)
theorem idx82 (g : Fin 2048) (q : Fin 2) : idx_main_v82 (ix2 g q) = ix2 (0 : Fin 1) q :=
  funext fun a => Fin.ext (by match a with | ⟨0, _⟩ => rfl | ⟨1, _⟩ => rfl)
theorem idx81 (q : Fin 2) : idx_main_v81 (ix2 (0 : Fin 1) q) = ix1 q :=
  funext fun a => Fin.ext (by match a with | ⟨0, _⟩ => rfl)

/-- The broadcast clamped graph size at (g, k) is the clamped size of graph g. -/
theorem clamp77_at (x2 : (⟨S100000, .i32⟩ : BufTy).Contents (Elt Ideal)) (g : Fin 2048) (k : Fin 64) :
    val_main_v77 (F := Ideal) x2 (ix2 g k) = max (val_main_v73 (F := Ideal) x2 (ix1 g)) Cert.Sage.one := by
  rw [val_main_v77_apply, idx77, val_main_v76_apply, idx76, val_main_v75_apply, val_main_v74_apply,
    val_main_cst_15_apply, Ideal.maximumf_def, Ideal.ofBits_def]

/-- The mean row: the graph's row sum over its clamped size. -/
theorem mean78_at (x0 : (⟨S100000, .i32⟩ : BufTy).Contents (Elt Ideal)) (x1 : (⟨S2x1200000, .i32⟩ : BufTy).Contents (Elt Ideal)) (x2 : (⟨S100000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (g : Fin 2048) (k : Fin 64) :
    val_main_v78 (F := Ideal) x0 x1 x2 x3 x4 x5 x6 x7 x8 x9 (ix2 g k)
      = Ideal.div (val_main_v69 (F := Ideal) x0 x1 x2 x3 x4 x5 x6 x7 x8 x9 (ix2 g k)) (max (val_main_v73 (F := Ideal) x2 (ix1 g)) Cert.Sage.one) := by
  rw [val_main_v78_apply, clamp77_at, Ideal.hostDivf_def]

theorem wo79_at (x10 : (⟨S2x64, .f32⟩ : BufTy).Contents (Elt Ideal)) (k : Fin 64) (q : Fin 2) : val_main_v79 (F := Ideal) x10 (ix2 k q) = x10 (ix2 q k) := by
  rw [val_main_v79_apply, idx79]
theorem bias82_at (x11 : (⟨S2, .f32⟩ : BufTy).Contents (Elt Ideal)) (g : Fin 2048) (q : Fin 2) : val_main_v82 (F := Ideal) x11 (ix2 g q) = x11 (ix1 q) := by
  rw [val_main_v82_apply, idx82, val_main_v81_apply, idx81]

theorem dot80_at (x0 : (⟨S100000, .i32⟩ : BufTy).Contents (Elt Ideal)) (x1 : (⟨S2x1200000, .i32⟩ : BufTy).Contents (Elt Ideal)) (x2 : (⟨S100000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S2x64, .f32⟩ : BufTy).Contents (Elt Ideal)) (g : Fin 2048) (q : Fin 2) :
    val_main_v80 (F := Ideal) x0 x1 x2 x3 x4 x5 x6 x7 x8 x9 x10 (ix2 g q)
      = ∑ k : Fin 64, Ideal.div (val_main_v69 (F := Ideal) x0 x1 x2 x3 x4 x5 x6 x7 x8 x9 (ix2 g k))
          (max (val_main_v73 (F := Ideal) x2 (ix1 g)) Cert.Sage.one) * x10 (ix2 q k) := by
  rw [val_main_v80_apply]
  refine Finset.sum_congr rfl fun k _ => ?_
  rw [lidx80, ridx80, mean78_at, wo79_at]

/-- The pooled head of the reference is the specification's head. -/
theorem pool83 (x0 : (⟨S100000, .i32⟩ : BufTy).Contents (Elt Ideal)) (x1 : (⟨S2x1200000, .i32⟩ : BufTy).Contents (Elt Ideal)) (x2 : (⟨S100000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S2x64, .f32⟩ : BufTy).Contents (Elt Ideal)) (x11 : (⟨S2, .f32⟩ : BufTy).Contents (Elt Ideal)) :
    val_main_v83 (F := Ideal) x0 x1 x2 x3 x4 x5 x6 x7 x8 x9 x10 x11
      = Cert.Sage.poolArr (val_main_v69 (F := Ideal) x0 x1 x2 x3 x4 x5 x6 x7 x8 x9) (val_main_v73 (F := Ideal) x2) x10 x11 := by
  funext i
  obtain ⟨g, q, rfl⟩ : ∃ (g : Fin 2048) (q : Fin 2), i = ix2 g q := ⟨i 0, i 1, eq_ix2 i⟩
  rw [Cert.Sage.poolArr_ix2, val_main_v83_apply, dot80_at, bias82_at, Ideal.addf_def]
  exact pool_entry _ _ _ _ g q

/-! ## The host's index wrapping, gathers and scatter-adds

The reference applies the very operations the specification names, to the same operands; the gathers and
scatter-adds themselves stay closed on both sides. -/

theorem src_eq (x1 : (⟨S2x1200000, .i32⟩ : BufTy).Contents (Elt Ideal)) : val_main_v1 (F := Ideal) x1 = Cert.Sage.srcOf x1 := by
  unfold val_main_v1 val_main_v0 Cert.Sage.srcOf
  rfl

theorem dst_eq (x1 : (⟨S2x1200000, .i32⟩ : BufTy).Contents (Elt Ideal)) : val_main_v3 (F := Ideal) x1 = Cert.Sage.dstOf x1 := by
  unfold val_main_v3 val_main_v2 Cert.Sage.dstOf
  rfl

theorem emb_eq (x0 : (⟨S100000, .i32⟩ : BufTy).Contents (Elt Ideal)) (x3 : (⟨S10000x64, .f32⟩ : BufTy).Contents (Elt Ideal)) : val_main_v10 (F := Ideal) x0 x3 = Cert.Sage.embOf x0 x3 := by
  unfold val_main_v10 val_main_v9 val_main_v8 val_main_v7 val_main_v6 val_main_c_0 val_main_v5 val_main_v4 val_main_c
    Cert.Sage.embOf Cert.Sage.wrap
  rfl

theorem agg1_eq (x0 : (⟨S100000, .i32⟩ : BufTy).Contents (Elt Ideal)) (x1 : (⟨S2x1200000, .i32⟩ : BufTy).Contents (Elt Ideal)) (x3 : (⟨S10000x64, .f32⟩ : BufTy).Contents (Elt Ideal)) :
    val_main_v20 (F := Ideal) x0 x1 x3 = Cert.Sage.aggOf (val_main_v10 (F := Ideal) x0 x3) x1 := by
  unfold val_main_v20 val_main_v18 val_main_cst val_main_v19 val_main_v17 val_main_v16 val_main_v15 val_main_v14 val_main_v13
    val_main_c_2 val_main_v12 val_main_v11 val_main_c_1 Cert.Sage.aggOf Cert.Sage.wrap
  rw [src_eq, dst_eq]
  rfl

theorem cnt1_eq (x1 : (⟨S2x1200000, .i32⟩ : BufTy).Contents (Elt Ideal)) : val_main_v24 (F := Ideal) x1 = Cert.Sage.cntOf x1 := by
  unfold val_main_v24 val_main_v22 val_main_cst_4 val_main_v23 val_main_v21 val_main_cst_3 Cert.Sage.cntOf
  rw [dst_eq]
  rfl

theorem agg2_eq (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v48 (F := Ideal) x0 x1 x3 x4 x5 x6 = Cert.Sage.aggOf (val_main_v38 (F := Ideal) x0 x1 x3 x4 x5 x6) x1 := by
  unfold val_main_v48 val_main_v46 val_main_cst_8 val_main_v47 val_main_v45 val_main_v44 val_main_v43 val_main_v42 val_main_v41
    val_main_c_7 val_main_v40 val_main_v39 val_main_c_6 Cert.Sage.aggOf Cert.Sage.wrap
  rw [src_eq, dst_eq]
  rfl

theorem cnt2_eq (x1 : (⟨S2x1200000, .i32⟩ : BufTy).Contents (Elt Ideal)) : val_main_v52 (F := Ideal) x1 = Cert.Sage.cntOf x1 := by
  unfold val_main_v52 val_main_v50 val_main_cst_10 val_main_v51 val_main_v49 val_main_cst_9 Cert.Sage.cntOf
  rw [dst_eq]
  rfl

theorem psum_eq (x0 : (⟨S100000, .i32⟩ : BufTy).Contents (Elt Ideal)) (x1 : (⟨S2x1200000, .i32⟩ : BufTy).Contents (Elt Ideal)) (x2 : (⟨S100000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) :
    val_main_v69 (F := Ideal) x0 x1 x2 x3 x4 x5 x6 x7 x8 x9
      = Cert.Sage.poolSumOf (val_main_v66 (F := Ideal) x0 x1 x3 x4 x5 x6 x7 x8 x9) x2 := by
  unfold val_main_v69 val_main_v67 val_main_cst_12 val_main_v68 Cert.Sage.poolSumOf
  rfl

theorem gcnt_eq (x2 : (⟨S100000, .i32⟩ : BufTy).Contents (Elt Ideal)) : val_main_v73 (F := Ideal) x2 = Cert.Sage.gcntOf x2 := by
  unfold val_main_v73 val_main_v71 val_main_cst_14 val_main_v72 val_main_v70 val_main_cst_13 Cert.Sage.gcntOf
  rfl

/-! ## The reference's result -/

/-- The first layer's output as a function of the arguments. -/
theorem h1_eq (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) : val_main_v38 (F := Ideal) x0 x1 x3 x4 x5 x6 = Cert.Sage.h1Of x0 x1 x3 x4 x5 x6 := by
  unfold Cert.Sage.h1Of
  rw [sage38, agg1_eq, cnt1_eq, emb_eq]

/-- The second layer's output as a function of the arguments. -/
theorem h2_eq (x0 : (⟨S100000, .i32⟩ : BufTy).Contents (Elt Ideal)) (x1 : (⟨S2x1200000, .i32⟩ : BufTy).Contents (Elt Ideal)) (x3 : (⟨S10000x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) : val_main_v66 (F := Ideal) x0 x1 x3 x4 x5 x6 x7 x8 x9 = Cert.Sage.h2Of x0 x1 x3 x4 x5 x6 x7 x8 x9 := by
  unfold Cert.Sage.h2Of
  rw [sage66, agg2_eq, cnt2_eq, h1_eq]

/-- The reference's result is the specification's output. -/
theorem ref_out (x0 : (⟨Cert.ReferenceIdeal.S100000, .i32⟩ : BufTy).Contents (Elt Ideal)) (x1 : (⟨Cert.ReferenceIdeal.S2x1200000, .i32⟩ : BufTy).Contents (Elt Ideal)) (x2 : (⟨Cert.ReferenceIdeal.S100000, .i32⟩ : BufTy).Contents (Elt Ideal)) (x3 : (⟨Cert.ReferenceIdeal.S10000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) :
    Cert.ReferenceIdeal.Read.val_main_v83 (F := Ideal) x0 x1 x2 x3 x4 x5 x6 x7 x8 x9 x10 x11 = Cert.Sage.outOf x0 x1 x2 x3 x4 x5 x6 x7 x8 x9 x10 x11 := by
  unfold Cert.Sage.outOf
  rw [pool83, psum_eq, gcnt_eq, h2_eq]

end Cert.Sage.Ref

end
-- ==== Proof.lean ====
/-
  The kernel is a two-layer GraphSAGE network with a mean-pooled linear head; its dense layers run as three
  TensorCore regions (two 5000-row-blocked SAGE layers and the head) among the host's gathers and scatter-adds,
  and the reference is the same network in plain array operations.

  At the extended reals the two programs compute one function of the arguments, `Cert.Sage.outOf`:
    • a change of float format is the identity, so carrying the features and the in-degrees in a narrower
      format changes nothing;
    • a region's matrix product into a zero accumulator and the host's product are the same sums;
    • the gathers and scatter-adds are the same host operations applied to equal arrays on both sides;
    • the kernel multiplies a row by the reciprocal of its clamped count where the reference divides the row by
      the clamped count: the clamped count is at least one, hence not zero, and off zero the quotient is the
      product with the inverse (`Cert.Sage.div_clamped`) — at every extended real, so the precondition is
      never opened.
  The kernel side reads each region's output array off the frame's proof data (every block is the layer of the
  rows it covers, and the blocks cover the array), threads it through the host stretches' terms, and names the
  result buffer at the run's end; the reference side reads its run one operation at a time. The word-level
  kernel needs only its frame, and the idealization rewrote nothing.
-/
import proofs.«148845_j88648124990545_2_alg».proof.Defs
import proofs.«148845_j88648124990545_2_alg».proof.Proof.Gen.Kernel
import proofs.«148845_j88648124990545_2_alg».proof.Proof.Gen.Kernel.Frame
import proofs.«148845_j88648124990545_2_alg».proof.Proof.Gen.KernelIdeal
import proofs.«148845_j88648124990545_2_alg».proof.Proof.Gen.KernelIdeal.Frame
import proofs.«148845_j88648124990545_2_alg».proof.Proof.Gen.ReferenceIdeal
import proofs.«148845_j88648124990545_2_alg».proof.Proof.Gen.ReferenceIdeal.Run
import proofs.«148845_j88648124990545_2_alg».proof.Proof.Gen.ReferenceIdeal.Read
import proofs.«148845_j88648124990545_2_alg».proof.Proof.Gen.Pre_finite_inputs
import proofs.«148845_j88648124990545_2_alg».proof.Proof.KValue
import proofs.«148845_j88648124990545_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at `outOf` of the (agreeing) arguments. -/
theorem algebraic : Cert.algebraic_KernelIdeal_ReferenceIdeal := by
  intro m ρ m' ρ' _ hagree
  refine ⟨_, Cert.Sage.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, Cert.Sage.Ref.ref_out,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
